-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x3072 : Shape := ⟨2, ![1, 3072]⟩
abbrev S8192x1024 : Shape := ⟨2, ![8192, 1024]⟩
abbrev S512x1024 : Shape := ⟨2, ![512, 1024]⟩
abbrev S512x3072 : Shape := ⟨2, ![512, 3072]⟩
abbrev S1x512x1024 : Shape := ⟨3, ![1, 512, 1024]⟩
abbrev S1x2048x1024 : Shape := ⟨3, ![1, 2048, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 19
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x3072, .f32⟩
  | .hbm, ⟨8, _⟩ => ⟨S1024x3072, .bf16⟩
  | .hbm, ⟨9, _⟩ => ⟨S3072, .f32⟩
  | .hbm, ⟨10, _⟩ => ⟨S1x3072, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x2048x1024, .f32⟩
  | .local _ .vmem, ⟨13, _⟩ => ⟨S1x2048x1024, .f32⟩
  | .local _ .vmem, ⟨14, _⟩ => ⟨S1x512x1024, .f32⟩
  | .local _ .vmem, ⟨15, _⟩ => ⟨S1x512x1024, .f32⟩
  | .local _ .vmem, ⟨16, _⟩ => ⟨S2048x1024, .bf16⟩
  | .local _ .vmem, ⟨17, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x2048x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  shapeCasts_S8192x1024_S4x2048x1024 : S8192x1024.ShapeCasts S4x2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x2048_S512 : S512x2048.Reduces [1] S512
  shapeCasts_S512_S512x1 : S512.ShapeCasts S512x1
  broadcasts_S512x1_S512x2048 : S512x1.Broadcasts S512x2048
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .f32 = 32 ∨ (Rect.block (s := S4x2048x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .f32 = 32 ∨ (Rect.block (s := S4x2048x1024) S1x2048x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .f32 = 32 ∨ (Rect.block (s := S4x2048x1024) S1x2048x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v4) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x2048x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.FrameB0.lean ====
/-
  The projection region (the first of the program's two kernel regions) at a PARAMETER `V`, the
  buffer contents when the region is entered.

  The grid has 16 points; point t handles rows 512·t … 512·t+511 of the [8192,1024] input. Its
  three input windows are the row block of the input (a new block at every point), the whole
  [1024,3072] weight matrix and the whole [1,3072] bias row (both the same block at every point,
  fetched once). The body loads the three, forms the [512,3072] product plus bias, and stores its
  three column thirds whole into the three output windows' buffers. So after the body each output
  buffer is one store covering it, whose value is the body's arithmetic of the three input blocks;
  the inputs' buffers are as found. Nothing is kept between points.
-/
import proofs.«149817_j75685913690753_2_alg».proof.Proof.Gen.Kernel.Launch
import proofs.«149817_j75685913690753_2_alg».proof.Proof.Gen.Kernel.Skeleton
import proofs.«149817_j75685913690753_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: where it is not
    fetched its block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0

/-! ## What the body leaves in each output window's buffer: its one store, over the three input blocks -/

def out0_3 (x0 : Vec F S512x1024 .f32) (x1 : Vec F S1024x3072 .bf16) (x2 : Vec F S1x3072 .f32) : Vec F S512x1024 .f32 :=
  View.canon [⟨r0_x, k0_pay2 (View.ld x0 r0_x) (View.ld x1 r0_w) (View.ld x2 r0_b)⟩]
def out0_4 (x0 : Vec F S512x1024 .f32) (x1 : Vec F S1024x3072 .bf16) (x2 : Vec F S1x3072 .f32) : Vec F S512x1024 .f32 :=
  View.canon [⟨r0_x, k0_pay3 (View.ld x0 r0_x) (View.ld x1 r0_w) (View.ld x2 r0_b)⟩]
def out0_5 (x0 : Vec F S512x1024 .f32) (x1 : Vec F S1024x3072 .bf16) (x2 : Vec F S1x3072 .f32) : Vec F S512x1024 .f32 :=
  View.canon [⟨r0_x, k0_pay4 (View.ld x0 r0_x) (View.ld x1 r0_w) (View.ld x2 r0_b)⟩]

/-- One whole-buffer store covers the buffer. -/
theorem cover0 (p0 : Vec F S512x1024 .f32) (y : S512x1024.Idx) :
    ∃ pc ∈ ([⟨r0_x, p0⟩] : List (View.Piece (Elt F) S512x1024 .f32)), y ∈ pc.1.set :=
  View.cover_of_tiled [⟨r0_x, p0⟩] S512x1024.size (by rfl) y

/-! ## The body's triple -/

set_option maxHeartbeats 1000000 in
/-- On whole buffers, the inputs' at known contents and the outputs' at anything, the body runs to its end
    leaving the inputs' as they were and each output's at its one store. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .f32) (harg4 : arg4.IsWhole)
    (arg5 : Memref sig .tc .vmem S512x1024 .f32) (harg5 : arg5.IsWhole) (arg6 : Memref sig .tc .vmem S512x1024 .f32) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The region's proof data -/

/-- The arrays as the region finds them; after the body at point `t` each input's buffer at its block and each
    output's at its store over the input blocks; between points only the untouched scoped buffers and the
    generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FrameB1.lean ====
/-
  The attention region (the second of the program's two kernel regions) at a PARAMETER `V`, the
  buffer contents when the region is entered.

  The grid is 4 batches × 4 query tiles, 16 points in row-major order: point t is batch t / 4 and
  query tile t % 4. The input windows are the [1,512,1024] query tile (a new block at every point)
  and the batch's whole [1,2048,1024] key and value blocks (a new block when the batch changes, that
  is at the points t ≡ 0 mod 4, and only fetched there). The body keeps two [2048,1024] scratch
  buffers between points: at a batch's first point it fills them from the key and value blocks; at
  every point it then computes the tile's attention from the query block and the two scratch
  buffers and stores it whole into the output window's buffer.

  So between points the scratch buffers hold the fill made at the first point of the current
  batch. After point n they hold the fill from the key / value blocks at point 4·(n / 4); this is
  what the invariant below says, and why the output at point t is a function of the query block at
  t and the key / value blocks at the batch's first point.
-/
import proofs.«149817_j75685913690753_2_alg».proof.Proof.Gen.Kernel.Launch
import proofs.«149817_j75685913690753_2_alg».proof.Proof.Gen.Kernel.Skeleton
import proofs.«149817_j75685913690753_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: where it is not
    fetched its block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_q : Rect S1x512x1024 := Rect.unit (s := S1x512x1024) ![0, 0, 0] S1x512x1024.size inb_S1x512x1024_S1x512x1024_0_0_0
abbrev r1_k : Rect S1x2048x1024 := Rect.unit (s := S1x2048x1024) ![0, 0, 0] S1x2048x1024.size inb_S1x2048x1024_S1x2048x1024_0_0_0
abbrev r1_s : Rect S2048x1024 := Rect.unit (s := S2048x1024) ![0, 0] S2048x1024.size inb_S2048x1024_S2048x1024_0_0

/-! ## What the body's stores leave -/

/-- A scratch buffer after the fill from a key block: one whole store. -/
def scrK (xk : Vec F S1x2048x1024 .f32) : Vec F S2048x1024 .bf16 :=
  View.canon [⟨r1_s, k1_pay1 (View.ld xk r1_k)⟩]
/-- A scratch buffer after the fill from a value block. -/
def scrV (xv : Vec F S1x2048x1024 .f32) : Vec F S2048x1024 .bf16 :=
  View.canon [⟨r1_s, k1_pay2 (View.ld xv r1_k)⟩]
/-- The output window's buffer after the body: one whole store of the tile's attention, from the query block and
    the two scratch buffers' contents. -/
def out1_3 (xq : Vec F S1x512x1024 .f32) (s0 s1 : Vec F S2048x1024 .bf16) : Vec F S1x512x1024 .f32 :=
  View.canon [⟨r1_q, k1_pay3 (View.ld xq r1_q) (View.ld s0 r1_s) (View.ld s1 r1_s)⟩]

theorem cover1_s (p0 : Vec F S2048x1024 .bf16) (y : S2048x1024.Idx) :
    ∃ pc ∈ ([⟨r1_s, p0⟩] : List (View.Piece (Elt F) S2048x1024 .bf16)), y ∈ pc.1.set :=
  View.cover_of_tiled [⟨r1_s, p0⟩] S2048x1024.size (by rfl) y
theorem cover1_q (p0 : Vec F S1x512x1024 .f32) (y : S1x512x1024.Idx) :
    ∃ pc ∈ ([⟨r1_q, p0⟩] : List (View.Piece (Elt F) S1x512x1024 .f32)), y ∈ pc.1.set :=
  View.cover_of_tiled [⟨r1_q, p0⟩] S1x512x1024.size (by rfl) y

/-! ## The body's branch condition -/

/-- The condition of the body's one branch: the second grid coordinate (the query tile) is 0. -/
abbrev cond1_0 (i : grid1.Coords) : Prop := (Scalar.cmpi .ne (Scalar.extui (Scalar.cmpi .eq (BitVec.ofNat 32 (i 1).val) 0#32)) 0#32) = 1#1
/-- It holds at the points ≡ 0 (mod 4): the first point of each batch. -/
theorem hcond1_0 : ∀ t : Fin cfg1.N, cond1_0 (grid1.coords t) ↔ t.val % 4 = 0 :=
  (by decide +kernel : ∀ t : Fin grid1.N, cond1_0 (grid1.coords t) ↔ t.val % 4 = 0)

/-- The two scratch operands: whole scoped buffers of the kernel's own. -/
abbrev scM0 : Memref sig .tc .vmem S2048x1024 .bf16 := Memref.whole cc1_scratch0
abbrev scM1 : Memref sig .tc .vmem S2048x1024 .bf16 := Memref.whole cc1_scratch1

/-! ## The body's triples, one per branch -/

set_option maxHeartbeats 2000000 in
/-- At a batch's first point: the key and value blocks are read, the two scratch buffers are filled from them,
    and the output is the tile's attention from the query block and the two fills. -/
theorem sound_kernel1_first (c : Dev nD) (E : Set ℕ) (i : grid1.Coords) (hc : cond1_0 i)
    (arg2 : Memref sig .tc .vmem S1x512x1024 .f32) (harg2 : arg2.IsWhole) (arg3 : Memref sig .tc .vmem S1x2048x1024 .f32) (harg3 : arg3.IsWhole)
    (arg4 : Memref sig .tc .vmem S1x2048x1024 .f32) (harg4 : arg4.IsWhole) (arg5 : Memref sig .tc .vmem S1x512x1024 .f32) (harg5 : arg5.IsWhole)
    (arg6 : Memref sig .tc .vmem S2048x1024 .bf16) (harg6 : arg6.IsWhole) (arg7 : Memref sig .tc .vmem S2048x1024 .bf16) (harg7 : arg7.IsWhole)
    (xq : Vec F S1x512x1024 .f32) (xk xv : Vec F S1x2048x1024 .f32) (K : PUnit → sProp 𝕄) :
    iprop(owns (c : Thread nD τ) arg2 fullShare xq ∗ owns (c : Thread nD τ) arg3 fullShare xk ∗ owns (c : Thread nD τ) arg4 fullShare xv
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare xq ∗ owns (c : Thread nD τ) arg3 fullShare xk ∗ owns (c : Thread nD τ) arg4 fullShare xv
            ∗ owns (c : Thread nD τ) arg5 fullShare (out1_3 xq (scrK xk) (scrV xv))
            ∗ owns (c : Thread nD τ) arg6 fullShare (scrK xk) ∗ owns (c : Thread nD τ) arg7 fullShare (scrV xv)) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    refine (View.read_writes_eq_canon _ _ _ (cover1_q _)).trans ?_
    unfold out1_3 scrK scrV
    rw [View.readCov_eq_canon', View.readCov_eq_canon']
    rfl
  isplitl [H4]
  · iexists _; isplitr
    swap; · iexact H4
    ipureintro
    sl_unfold_run_names
    exact View.read_writes_eq_canon _ _ _ (cover1_s _)
  iexists _; isplitr
  swap; · iexact H5
  ipureintro
  sl_unfold_run_names
  exact View.read_writes_eq_canon _ _ _ (cover1_s _)

set_option maxHeartbeats 2000000 in
/-- At a batch's later points: the scratch buffers are read as found and left as found; the key and value windows'
    buffers are not touched at all. -/
theorem sound_kernel1_later (c : Dev nD) (E : Set ℕ) (i : grid1.Coords) (hc : ¬cond1_0 i)
    (arg2 : Memref sig .tc .vmem S1x512x1024 .f32) (harg2 : arg2.IsWhole) (arg3 : Memref sig .tc .vmem S1x2048x1024 .f32) (harg3 : arg3.IsWhole)
    (arg4 : Memref sig .tc .vmem S1x2048x1024 .f32) (harg4 : arg4.IsWhole) (arg5 : Memref sig .tc .vmem S1x512x1024 .f32) (harg5 : arg5.IsWhole)
    (arg6 : Memref sig .tc .vmem S2048x1024 .bf16) (harg6 : arg6.IsWhole) (arg7 : Memref sig .tc .vmem S2048x1024 .bf16) (harg7 : arg7.IsWhole)
    (xq : Vec F S1x512x1024 .f32) (s0 s1 : Vec F S2048x1024 .bf16) (K : PUnit → sProp 𝕄) :
    iprop(owns (c : Thread nD τ) arg2 fullShare xq
        ∗ (∃ d, owns (c : Thread nD τ) arg5 fullShare d) ∗ owns (c : Thread nD τ) arg6 fullShare s0 ∗ owns (c : Thread nD τ) arg7 fullShare s1
        ∗ (iprop(owns (c : Thread nD τ) arg2 fullShare xq
            ∗ owns (c : Thread nD τ) arg5 fullShare (out1_3 xq s0 s1)
            ∗ owns (c : Thread nD τ) arg6 fullShare s0 ∗ owns (c : Thread nD τ) arg7 fullShare s1) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f0, %hf0, H0⟩, ⟨%d3, %f3, -, H3⟩, ⟨%f4, %hf4, H4⟩, ⟨%f5, %hf5, H5⟩, Hk⟩
  subst hf0; subst hf4; subst hf5
  sl_exec (disch := first | exact hc)
  sl_step
  iapply Hk
  isplitl [H0]
  · iexists f0; isplitr; · ipureintro; rfl
    iexact H0
  isplitl [H3]
  · iexists _; isplitr
    swap; · iexact H3
    ipureintro
    exact View.read_writes_eq_canon _ _ _ (cover1_q _)
  isplitl [H4]
  · iexists f4; isplitr; · ipureintro; rfl
    iexact H4
  iexists f5; isplitr; · ipureintro; rfl
  iexact H5

/-! ## What the scratch buffers hold between points -/

/-- The first point of the batch that point `n` belongs to: 4·(n / 4). -/
def tb (n : ℕ) : Fin cfg1.N := ⟨(4 * (n / 4)) % 16, lt_of_lt_of_eq (Nat.mod_lt _ (by decide)) N_1.symm⟩

theorem tb_of_first (t : Fin cfg1.N) (h : t.val % 4 = 0) : tb t.val = t := by
  have h16 : t.val < 16 := lt_of_lt_of_eq t.isLt N_1
  apply Fin.ext; show (4 * (t.val / 4)) % 16 = t.val; omega

theorem tb_pred (n : ℕ) (h : n % 4 ≠ 0) : tb (n - 1) = tb n := by
  apply Fin.ext; show (4 * ((n - 1) / 4)) % 16 = (4 * (n / 4)) % 16
  have e : (n - 1) / 4 = n / 4 := by omega
  rw [e]

/-- The fills made from the key and the value block at point `t`. -/
def fillK (c : Dev nD) (t : Fin cfg1.N) : Vec F S2048x1024 .bf16 := scrK (iblk1 V c 1 t)
def fillV (c : Dev nD) (t : Fin cfg1.N) : Vec F S2048x1024 .bf16 := scrV (iblk1 V c 2 t)

/-- The two scratch buffers before point `j` (after point j − 1): anything before the first point, afterwards the
    fills from the first point of the batch of point j − 1. -/
def scr (c : Dev nD) (j : ℕ) : sProp 𝕄 :=
  if j = 0 then iprop((∃ d, owns (c : Thread nD τ) scM0 fullShare d) ∗ (∃ d, owns (c : Thread nD τ) scM1 fullShare d))
  else iprop(owns (c : Thread nD τ) scM0 fullShare (fillK V c (tb (j - 1))) ∗ owns (c : Thread nD τ) scM1 fullShare (fillV V c (tb (j - 1))))

theorem scr_succ (c : Dev nD) (j : ℕ) : scr V c (j + 1)
    = iprop(owns (c : Thread nD τ) scM0 fullShare (fillK V c (tb j)) ∗ owns (c : Thread nD τ) scM1 fullShare (fillV V c (tb j))) := by
  unfold scr; rw [if_neg (Nat.succ_ne_zero j), Nat.add_sub_cancel]

theorem scr_pos (c : Dev nD) (j : ℕ) (h : j ≠ 0) : scr V c j
    = iprop(owns (c : Thread nD τ) scM0 fullShare (fillK V c (tb (j - 1))) ∗ owns (c : Thread nD τ) scM1 fullShare (fillV V c (tb (j - 1)))) := by
  unfold scr; rw [if_neg h]

theorem scr_any (c : Dev nD) (j : ℕ) : scr V c j
    ⊢ iprop((∃ d, owns (c : Thread nD τ) scM0 fullShare d) ∗ (∃ d, owns (c : Thread nD τ) scM1 fullShare d)) := by
  by_cases h : j = 0
  · unfold scr; rw [if_pos h]
  · rw [scr_pos V c j h]
    iintro ⟨H0, H1⟩
    isplitl [H0]; · iexists _; iexact H0
    iexists _; iexact H1

/-- The other region's staging buffers, each whole at some contents: scoped buffers this region never touches. -/
def othersHeld (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The invariant before point `j`: the other region's staging buffers, the two scratch buffers, the generator register. -/
def Phi1 (c : Dev nD) (j : ℕ) : sProp 𝕄 := iprop(othersHeld (F := F) c ∗ scr V c j ∗ ∃ r, prngReg c r)

/-! ## The region's proof data -/

/-- The arrays as the region finds them; after the body at point `t` each input's buffer at its block, the output's
    at the tile's attention from the query block at `t` and the fills of the batch's first point; between points
    the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (fillK V c (tb t.val)) (fillV V c (tb t.val))
  Φ j := Phi1 V c j.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (fillK V c (tb t.val)) (fillV V c (tb t.val)) := by dsimp only [dat1]

theorem Phi_castSucc (c : Dev nD) (t : Fin cfg1.N) : (dat1 V c).Φ t.castSucc = Phi1 V c t.val := by
  dsimp only [dat1]; rw [Fin.coe_castSucc]
theorem Phi_succ (c : Dev nD) (t : Fin cfg1.N) : (dat1 V c).Φ t.succ = Phi1 V c (t.val + 1) := by
  dsimp only [dat1]; rw [Fin.val_succ]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point. At a batch's first point the scratch buffers are taken at whatever they hold and left at
    the fills from this point's key and value blocks (this point IS the batch's first); at a later point they are
    taken at the fills of the previous point's batch, which is this point's batch, and left as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    after1_0, after1_1, after1_2, after1_3, Phi_castSucc, Phi_succ]
  unfold Phi1
  rw [scr_succ]
  by_cases hc : cond1_0 (grid1.coords t)
  · have h4 : t.val % 4 = 0 := (hcond1_0 t).mp hc
    rw [tb_of_first t h4]
    unfold fillK fillV
    iintro ⟨⟨Hoth, Hs, Hp⟩, Ho, ⟨%d0, H0⟩, ⟨%d1, H1⟩, ⟨%d2, H2⟩, ⟨%d3, H3⟩⟩
    ihave Hs' := (scr_any V c t.val) $$ Hs
    icases Hs' with ⟨HS0, HS1⟩
    iapply (sound_kernel1_first c Set.univ _ hc _ _ _ _ _ _ _ _ _ _ _ _ (iblk1 V c 0 t) (iblk1 V c 1 t) (iblk1 V c 2 t) _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [Hoth HS0 HS1 Hp]
    · isplitl [Hoth]; · iexact Hoth
      isplitl [HS0 HS1]
      · isplitl [HS0]; · iexact HS0
        iexact HS1
      iexact Hp
    isplitl [Ho]; · iexact Ho
    isplitl [H0]; · iexact H0
    isplitl [H1]; · iexact H1
    isplitl [H2]; · iexact H2
    iexact H3
  · have h4 : t.val % 4 ≠ 0 := fun h => hc ((hcond1_0 t).mpr h)
    have h0 : t.val ≠ 0 := fun h => h4 (by rw [h])
    rw [scr_pos V c t.val h0, tb_pred t.val h4]
    iintro ⟨⟨Hoth, ⟨HS0, HS1⟩, Hp⟩, Ho, ⟨%d0, H0⟩, ⟨%d1, H1⟩, ⟨%d2, H2⟩, ⟨%d3, H3⟩⟩
    iapply (sound_kernel1_later c Set.univ _ hc _ _ _ _ _ _ _ _ _ _ _ _ (iblk1 V c 0 t) (fillK V c (tb t.val)) (fillV V c (tb t.val)) _)
    isplitl [H0]; · iexact H0
    isplitl [H3]; · iexists _; iexact H3
    isplitl [HS0]; · iexact HS0
    isplitl [HS1]; · iexact HS1
    iintro ⟨H0, H3, HS0, HS1⟩
    isplitl [Hoth HS0 HS1 Hp]
    · isplitl [Hoth]; · iexact Hoth
      isplitl [HS0 HS1]
      · isplitl [HS0]; · iexact HS0
        iexact HS1
      iexact Hp
    isplitl [Ho]; · iexact Ho
    isplitl [H0]; · iexact H0
    isplitl [H1]; · iexact H1
    isplitl [H2]; · iexact H2
    iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.FrameBRun.lean ====
/-
  The whole run of the program: its five host operations, the projection region, three reshapes,
  the attention region — as four segments between five boundaries, with the contents of every
  unscoped buffer named at each boundary.

  Boundary 0 is the launch memory. Boundary 1 is that after the first stretch of host operations
  (the two concatenations, the change of format, the two reshapes). Boundary 2 differs from 1 only
  in the projection region's three result arrays, which hold what the region's write-backs leave.
  Boundary 3 is 2 after the three reshapes. Boundary 4 differs from 3 only in the attention
  region's result array. No host operation and no region writes an argument array, so each
  argument reads back through the four steps to its launch contents; and the program's result is
  the attention region's result array at boundary 4.
-/
import proofs.«149817_j75685913690753_2_alg».proof.Proof.FrameB0
import proofs.«149817_j75685913690753_2_alg».proof.Proof.FrameB1
import proofs.«149817_j75685913690753_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev bnd0 : Dev nD → Valuation τ sig (Elt F) := fun c b => (s₀ m ρ).mem ((c : Dev nD), b)
/-- After the first stretch of host operations (the projection region's entry). -/
abbrev bnd1 : Dev nD → Valuation τ sig (Elt F) := fun c => StableHlo.after hostOps0 (bnd0 m ρ c)
abbrev at1 : (c : Dev nD) → (b : Ref sig .tc) → Buf (Elt F) ((c : Thread nD τ).loc b) := fun c b => bnd1 m ρ c b
/-- At the projection region's exit: its arrays at what the pipeline leaves, every other buffer as entered. -/
def bnd2 (c : Dev nD) : Valuation τ sig (Elt F) :=
  Pipeline.withArrays spec0 c (bnd1 m ρ c) fun w => (dat0 (at1 m ρ) c).arrAt w cfg0.N
theorem bnd2_arr (c : Dev nD) (w : Fin cfg0.W) :
    bnd2 m ρ c (Proc.devRef .tc (Pipeline.arrRef spec0 w)) = (dat0 (at1 m ρ) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m ρ c (Proc.devRef .tc b) = bnd1 m ρ c (Proc.devRef .tc b) := by
  unfold bnd2; exact Pipeline.withArrays_of_ne spec0 c _ _ b hb
abbrev at2 : (c : Dev nD) → (b : Ref sig .tc) → Buf (Elt F) ((c : Thread nD τ).loc b) := fun c b => bnd2 m ρ c b
theorem hF0 (c : Dev nD) (w : Fin cfg0.W) : (dat0 (at1 m ρ) c).arrAt w cfg0.N = at2 m ρ c (Pipeline.arrRef spec0 w) :=
  (bnd2_arr m ρ c w).symm
theorem hrest0 (c : Dev nD) : ∀ b, b ∉ Finset.univ.image (Pipeline.arrRef spec0) → at2 m ρ c b = at1 m ρ c b :=
  fun b hb => bnd2_of_ne m ρ c b fun w e => hb (Finset.mem_image.mpr ⟨w, Finset.mem_univ _, e⟩)

/-- After the three reshapes (the attention region's entry). -/
abbrev bnd3 : Dev nD → Valuation τ sig (Elt F) := fun c => StableHlo.after hostOps1 (bnd2 m ρ c)
abbrev at3 : (c : Dev nD) → (b : Ref sig .tc) → Buf (Elt F) ((c : Thread nD τ).loc b) := fun c b => bnd3 m ρ c b
/-- At the attention region's exit. -/
def bnd4 (c : Dev nD) : Valuation τ sig (Elt F) :=
  Pipeline.withArrays spec1 c (bnd3 m ρ c) fun w => (dat1 (at3 m ρ) c).arrAt w cfg1.N
theorem bnd4_arr (c : Dev nD) (w : Fin cfg1.W) :
    bnd4 m ρ c (Proc.devRef .tc (Pipeline.arrRef spec1 w)) = (dat1 (at3 m ρ) c).arrAt w cfg1.N := by
  unfold bnd4; exact Pipeline.withArrays_arr spec1 launch1.win.arr_inj c _ _ w
theorem bnd4_of_ne (c : Dev nD) (b : Ref sig .tc) (hb : ∀ w, Pipeline.arrRef spec1 w ≠ b) :
    bnd4 m ρ c (Proc.devRef .tc b) = bnd3 m ρ c (Proc.devRef .tc b) := by
  unfold bnd4; exact Pipeline.withArrays_of_ne spec1 c _ _ b hb
abbrev at4 : (c : Dev nD) → (b : Ref sig .tc) → Buf (Elt F) ((c : Thread nD τ).loc b) := fun c b => bnd4 m ρ c b
theorem hF1 (c : Dev nD) (w : Fin cfg1.W) : (dat1 (at3 m ρ) c).arrAt w cfg1.N = at4 m ρ c (Pipeline.arrRef spec1 w) :=
  (bnd4_arr m ρ c w).symm
theorem hrest1 (c : Dev nD) : ∀ b, b ∉ Finset.univ.image (Pipeline.arrRef spec1) → at4 m ρ c b = at3 m ρ c b :=
  fun b hb => bnd4_of_ne m ρ c b fun w e => hb (Finset.mem_image.mpr ⟨w, Finset.mem_univ _, e⟩)

/-- A buffer that is no array of either region and that no host operation writes ends as launched. -/
theorem bnd4_kept (c : Dev nD) (r : Ref sig .tc) (h1 : ∀ w, Pipeline.arrRef spec1 w ≠ r) (h2 : r ∉ hostOps1_W)
    (h3 : ∀ w, Pipeline.arrRef spec0 w ≠ r) (h4 : r ∉ hostOps0_W) :
    bnd4 m ρ c (Proc.devRef .tc r) = m ((c : Thread nD τ).loc r) :=
  (bnd4_of_ne m ρ c r h1).trans <| (StableHlo.after_of_writes_sub hostOps1 _ hostOps1_writes h2).trans <|
    (bnd2_of_ne m ρ c r h3).trans <| (StableHlo.after_of_writes_sub hostOps0 _ hostOps0_writes h4).trans rfl

/-! ## The proof data family and the thread state -/

abbrev hadm : (p : Fin 2) → (pcfgs (F := F) p).Adm := fun p => (cfgs p).toPCfg_adm
/-- Each region's proof data at its entry contents. -/
def hpdats : (p : Fin 2) → (c : Dev nD) → Dat τ (Elt F) Unit ℕ (UR sig nD τ) ℕ (Pipeline.pin (pcfgs (F := F)) hadm p) c
  | ⟨0, _⟩ => fun c => dat0 (at1 m ρ) c
  | ⟨1, _⟩ => fun c => dat1 (at3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (bnd4 m ρ c) ∗ ∃ r, prngReg c r)

/-! ## The regions as segments -/

set_option backward.isDefEq.respectTransparency.types false in
/-- The projection region: entered from boundary 1, left at boundary 2. Its arrays are split out of the unscoped
    buffers and put back at their exit contents; the generator register goes into the invariant and comes out. -/
def hreg0 : Pipeline.RegionSeg (pcfgs (F := F)) hadm (hpdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (at1 m ρ) c).loose
  hwaits := Pipeline.hwaits_of_owed_zero _ _ _ _ L lv 0 fun _ _ => rfl
  pre c := iprop(StableHlo.held (c : Thread nD τ) (Pipeline.ucRefs τ sig) (bnd1 m ρ c) ∗ Rst c)
  post c := iprop(StableHlo.held (c : Thread nD τ) (Pipeline.ucRefs τ sig) (bnd2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (at1 m ρ c)
  hentry c := by
    rw [Pipeline.ownSems0_none]
    have hsplit := Pipeline.arrays_of_unscopedBufs (p := 0) (pcfgs (F := F)) hadm (hpdats m ρ) launch0.win launch0.arr_whole c
      ((hpdats m ρ 0 c).share_full fun _ => rfl) (at1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (hpdats m ρ) ((hpdats m ρ 0 c).share_full fun _ => rfl)
      (at1 m ρ c) (at2 m ρ c) ((hpdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from boundary 3, left at boundary 4. Besides the above, the region's invariant
    starts from the scoped buffers it does not stage — the other region's staging buffers and its own two scratch
    buffers, at whatever they hold — and gives them back at the end, the scratch buffers at whatever the last
    point left. -/
def hreg1 : Pipeline.RegionSeg (pcfgs (F := F)) hadm (hpdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (at3 m ρ) c).loose
  hwaits := Pipeline.hwaits_of_owed_zero _ _ _ _ L lv 1 fun _ _ => rfl
  pre c := iprop(StableHlo.held (c : Thread nD τ) (Pipeline.ucRefs τ sig) (bnd3 m ρ c) ∗ Rst c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (at3 m ρ c)
  hentry c := by
    rw [Pipeline.ownSems0_none]
    have hsplit := Pipeline.arrays_of_unscopedBufs (p := 1) (pcfgs (F := F)) hadm (hpdats m ρ) launch1.win launch1.arr_whole c
      ((hpdats m ρ 1 c).share_full fun _ => rfl) (at3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hsr : (Pipeline.scopedRest (Ix := Unit) (Name := ℕ) (U := UR sig nD τ) (Lvl := ℕ) (Val := Elt F) (Pipeline.pin (pcfgs (F := F)) hadm 1).spec c : sProp 𝕄)
        = Pipeline.scopedRest (Ix := Unit) (Name := ℕ) (U := UR sig nD τ) (Lvl := ℕ) (Val := Elt F) spec1 c := rfl
    rw [show (hpdats m ρ 1 c).Φ 0 = Phi1 (at3 m ρ) c 0 from rfl, hsr, scopedRest1_eq]
    unfold Phi1 othersHeld scr
    rw [if_pos rfl]
    simp only [owns_whole]
    iintro ⟨Hp, -, G0, G1, G2, G3, G4, G5, G6, G7, G8, G9, HS0, HS1⟩
    isplitl [G0 G1 G2 G3 G4 G5 G6 G7 G8 G9]
    · isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      iexact G9
    isplitl [HS0 HS1]
    · isplitl [HS0]; · iexact HS0
      iexact HS1
    iexact Hp
  hout c := by
    have hsr : (Pipeline.scopedRest (Ix := Unit) (Name := ℕ) (U := UR sig nD τ) (Lvl := ℕ) (Val := Elt F) (Pipeline.pin (pcfgs (F := F)) hadm 1).spec c : sProp 𝕄)
        = Pipeline.scopedRest (Ix := Unit) (Name := ℕ) (U := UR sig nD τ) (Lvl := ℕ) (Val := Elt F) spec1 c := rfl
    rw [Pipeline.ownSems0_none, show (hpdats m ρ 1 c).Φ (Fin.last _) = Phi1 (at3 m ρ) c (Fin.last (Pipeline.pin (pcfgs (F := F)) hadm 1).N).val from rfl, hsr, scopedRest1_eq]
    unfold Phi1 othersHeld
    iintro ⟨⟨G0, G1, G2, G3, G4, G5, G6, G7, G8, G9⟩, Hs, Hp⟩
    ihave Hs' := (scr_any (at3 m ρ) c _) $$ Hs
    simp only [owns_whole]
    icases Hs' with ⟨HS0, HS1⟩
    isplitl [Hp]; · iexact Hp
    isplitr; · iempintro
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [HS0]; · iexact HS0
    iexact HS1
  hexit c := by
    have hjoin := Pipeline.unscopedBufs_of_arrays (p := 1) (pcfgs (F := F)) hadm (Ix := Unit) (Name := ℕ) (U := UR sig nD τ) (Lvl := ℕ)
      launch1.win launch1.arr_whole c (hpdats m ρ) ((hpdats m ρ 1 c).share_full fun _ => rfl)
      (at3 m ρ c) (at4 m ρ c) ((hpdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev hsegs : List (Pipeline.Seg (pcfgs (F := F)) hadm (hpdats m ρ) () defs₀ 𝒱₀ L lv) :=
  [ .host (hseg hostOps0 hostOps0_sub hostOps0_fresh (bnd0 m ρ)),
    .region (hreg0 m ρ),
    .host (hseg hostOps1 hostOps1_sub hostOps1_fresh (bnd2 m ρ)),
    .region (hreg1 m ρ) ]
theorem hmain_run (c : Dev nD) : main (F := F) c = Pipeline.Seg.run (hsegs m ρ) := (main_chain c).trans (by chain_rfl)

set_option backward.isDefEq.respectTransparency.types false in
/-- Every weakly fair execution of the program from memory `m` with zero counters terminates, nothing faulting, and
    in the final state every unscoped buffer holds its contents at boundary 4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bnd4 m ρ c b) :=
  Pipeline.θ_run_regions_kit (pcfgs (F := F)) hadm (hpdats m ρ) () cellOf_inj emb₁ defs₀ 𝒱₀ L lv m ρ main (hsegs m ρ)
    (fun c Q => by rw [hmain_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m ρ c) ∗ Rst c)) (Tₙ := Tlast m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (bnd0 m ρ c)
        from Pipeline.unscopedBufs_held c (bnd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd4 m ρ c b)
    (hfin := fun c s' => by
      iintro ⟨⟨Hh, -⟩, HSI⟩
      unfold StableHlo.held
      imodintro
      iapply (pointsTo_read_all (Pipeline.ucRefs τ sig) (fun b => (((c : Thread nD τ)).1, b)) (bnd4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (bnd4_kept m ρ c main_arg0 (by decide) (by decide) (by decide) (by decide)),
    (h c _ (mem_uc main_arg1 (by decide))).trans (bnd4_kept m ρ c main_arg1 (by decide) (by decide) (by decide) (by decide)),
    (h c _ (mem_uc main_arg2 (by decide))).trans (bnd4_kept m ρ c main_arg2 (by decide) (by decide) (by decide) (by decide)),
    (h c _ (mem_uc main_arg3 (by decide))).trans (bnd4_kept m ρ c main_arg3 (by decide) (by decide) (by decide) (by decide)),
    (h c _ (mem_uc main_arg4 (by decide))).trans (bnd4_kept m ρ c main_arg4 (by decide) (by decide) (by decide) (by decide)),
    (h c _ (mem_uc main_arg5 (by decide))).trans (bnd4_kept m ρ c main_arg5 (by decide) (by decide) (by decide) (by decide)),
    (h c _ (mem_uc main_arg6 (by decide))).trans (bnd4_kept m ρ c main_arg6 (by decide) (by decide) (by decide) (by decide))⟩) (run_all m ρ)

/-- The run with the result named: the program's result array ends at what the attention region's write-backs
    leave, and every argument array as launched. -/
theorem run_result : θ_run defs (onTc (τ := τ) (main (F := F))) ⟨m, fun _ => 0, ρ⟩ (fun r => ∀ c : Dev nD,
      r.2.mem ((c.tc : Thread nD τ).loc main_v9) = (dat1 (at3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v9 (by decide))).trans (bnd4_arr m ρ c 3),
    (h c _ (mem_uc main_arg0 (by decide))).trans (bnd4_kept m ρ c main_arg0 (by decide) (by decide) (by decide) (by decide)),
    (h c _ (mem_uc main_arg1 (by decide))).trans (bnd4_kept m ρ c main_arg1 (by decide) (by decide) (by decide) (by decide)),
    (h c _ (mem_uc main_arg2 (by decide))).trans (bnd4_kept m ρ c main_arg2 (by decide) (by decide) (by decide) (by decide)),
    (h c _ (mem_uc main_arg3 (by decide))).trans (bnd4_kept m ρ c main_arg3 (by decide) (by decide) (by decide) (by decide)),
    (h c _ (mem_uc main_arg4 (by decide))).trans (bnd4_kept m ρ c main_arg4 (by decide) (by decide) (by decide) (by decide)),
    (h c _ (mem_uc main_arg5 (by decide))).trans (bnd4_kept m ρ c main_arg5 (by decide) (by decide) (by decide) (by decide)),
    (h c _ (mem_uc main_arg6 (by decide))).trans (bnd4_kept m ρ c main_arg6 (by decide) (by decide) (by decide) (by decide))⟩) (run_all m ρ)

end Cert.Kernel.Hand

end
-- ==== Proof.FrameI0.lean ====
/-
  The projection region (the first of the program's two kernel regions) at a PARAMETER `V`, the
  buffer contents when the region is entered.

  The grid has 16 points; point t handles rows 512·t … 512·t+511 of the [8192,1024] input. Its
  three input windows are the row block of the input (a new block at every point), the whole
  [1024,3072] weight matrix and the whole [1,3072] bias row (both the same block at every point,
  fetched once). The body loads the three, forms the [512,3072] product plus bias, and stores its
  three column thirds whole into the three output windows' buffers. So after the body each output
  buffer is one store covering it, whose value is the body's arithmetic of the three input blocks;
  the inputs' buffers are as found. Nothing is kept between points.
-/
import proofs.«149817_j75685913690753_2_alg».proof.Proof.Gen.KernelIdeal.Launch
import proofs.«149817_j75685913690753_2_alg».proof.Proof.Gen.KernelIdeal.Skeleton
import proofs.«149817_j75685913690753_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: where it is not
    fetched its block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0

/-! ## What the body leaves in each output window's buffer: its one store, over the three input blocks -/

def out0_3 (x0 : Vec F S512x1024 .f32) (x1 : Vec F S1024x3072 .bf16) (x2 : Vec F S1x3072 .f32) : Vec F S512x1024 .f32 :=
  View.canon [⟨r0_x, k0_pay2 (View.ld x0 r0_x) (View.ld x1 r0_w) (View.ld x2 r0_b)⟩]
def out0_4 (x0 : Vec F S512x1024 .f32) (x1 : Vec F S1024x3072 .bf16) (x2 : Vec F S1x3072 .f32) : Vec F S512x1024 .f32 :=
  View.canon [⟨r0_x, k0_pay3 (View.ld x0 r0_x) (View.ld x1 r0_w) (View.ld x2 r0_b)⟩]
def out0_5 (x0 : Vec F S512x1024 .f32) (x1 : Vec F S1024x3072 .bf16) (x2 : Vec F S1x3072 .f32) : Vec F S512x1024 .f32 :=
  View.canon [⟨r0_x, k0_pay4 (View.ld x0 r0_x) (View.ld x1 r0_w) (View.ld x2 r0_b)⟩]

/-- One whole-buffer store covers the buffer. -/
theorem cover0 (p0 : Vec F S512x1024 .f32) (y : S512x1024.Idx) :
    ∃ pc ∈ ([⟨r0_x, p0⟩] : List (View.Piece (Elt F) S512x1024 .f32)), y ∈ pc.1.set :=
  View.cover_of_tiled [⟨r0_x, p0⟩] S512x1024.size (by rfl) y

/-! ## The body's triple -/

set_option maxHeartbeats 1000000 in
/-- On whole buffers, the inputs' at known contents and the outputs' at anything, the body runs to its end
    leaving the inputs' as they were and each output's at its one store. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .f32) (harg4 : arg4.IsWhole)
    (arg5 : Memref sig .tc .vmem S512x1024 .f32) (harg5 : arg5.IsWhole) (arg6 : Memref sig .tc .vmem S512x1024 .f32) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The region's proof data -/

/-- The arrays as the region finds them; after the body at point `t` each input's buffer at its block and each
    output's at its store over the input blocks; between points only the untouched scoped buffers and the
    generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameI1.lean ====
/-
  The attention region (the second of the program's two kernel regions) at a PARAMETER `V`, the
  buffer contents when the region is entered.

  The grid is 4 batches × 4 query tiles, 16 points in row-major order: point t is batch t / 4 and
  query tile t % 4. The input windows are the [1,512,1024] query tile (a new block at every point)
  and the batch's whole [1,2048,1024] key and value blocks (a new block when the batch changes, that
  is at the points t ≡ 0 mod 4, and only fetched there). The body keeps two [2048,1024] scratch
  buffers between points: at a batch's first point it fills them from the key and value blocks; at
  every point it then computes the tile's attention from the query block and the two scratch
  buffers and stores it whole into the output window's buffer.

  So between points the scratch buffers hold the fill made at the first point of the current
  batch. After point n they hold the fill from the key / value blocks at point 4·(n / 4); this is
  what the invariant below says, and why the output at point t is a function of the query block at
  t and the key / value blocks at the batch's first point.
-/
import proofs.«149817_j75685913690753_2_alg».proof.Proof.Gen.KernelIdeal.Launch
import proofs.«149817_j75685913690753_2_alg».proof.Proof.Gen.KernelIdeal.Skeleton
import proofs.«149817_j75685913690753_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: where it is not
    fetched its block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_q : Rect S1x512x1024 := Rect.unit (s := S1x512x1024) ![0, 0, 0] S1x512x1024.size inb_S1x512x1024_S1x512x1024_0_0_0
abbrev r1_k : Rect S1x2048x1024 := Rect.unit (s := S1x2048x1024) ![0, 0, 0] S1x2048x1024.size inb_S1x2048x1024_S1x2048x1024_0_0_0
abbrev r1_s : Rect S2048x1024 := Rect.unit (s := S2048x1024) ![0, 0] S2048x1024.size inb_S2048x1024_S2048x1024_0_0

/-! ## What the body's stores leave -/

/-- A scratch buffer after the fill from a key block: one whole store. -/
def scrK (xk : Vec F S1x2048x1024 .f32) : Vec F S2048x1024 .bf16 :=
  View.canon [⟨r1_s, k1_pay1 (View.ld xk r1_k)⟩]
/-- A scratch buffer after the fill from a value block. -/
def scrV (xv : Vec F S1x2048x1024 .f32) : Vec F S2048x1024 .bf16 :=
  View.canon [⟨r1_s, k1_pay2 (View.ld xv r1_k)⟩]
/-- The output window's buffer after the body: one whole store of the tile's attention, from the query block and
    the two scratch buffers' contents. -/
def out1_3 (xq : Vec F S1x512x1024 .f32) (s0 s1 : Vec F S2048x1024 .bf16) : Vec F S1x512x1024 .f32 :=
  View.canon [⟨r1_q, k1_pay3 (View.ld xq r1_q) (View.ld s0 r1_s) (View.ld s1 r1_s)⟩]

theorem cover1_s (p0 : Vec F S2048x1024 .bf16) (y : S2048x1024.Idx) :
    ∃ pc ∈ ([⟨r1_s, p0⟩] : List (View.Piece (Elt F) S2048x1024 .bf16)), y ∈ pc.1.set :=
  View.cover_of_tiled [⟨r1_s, p0⟩] S2048x1024.size (by rfl) y
theorem cover1_q (p0 : Vec F S1x512x1024 .f32) (y : S1x512x1024.Idx) :
    ∃ pc ∈ ([⟨r1_q, p0⟩] : List (View.Piece (Elt F) S1x512x1024 .f32)), y ∈ pc.1.set :=
  View.cover_of_tiled [⟨r1_q, p0⟩] S1x512x1024.size (by rfl) y

/-! ## The body's branch condition -/

/-- The condition of the body's one branch: the second grid coordinate (the query tile) is 0. -/
abbrev cond1_0 (i : grid1.Coords) : Prop := (Scalar.cmpi .ne (Scalar.extui (Scalar.cmpi .eq (BitVec.ofNat 32 (i 1).val) 0#32)) 0#32) = 1#1
/-- It holds at the points ≡ 0 (mod 4): the first point of each batch. -/
theorem hcond1_0 : ∀ t : Fin cfg1.N, cond1_0 (grid1.coords t) ↔ t.val % 4 = 0 :=
  (by decide +kernel : ∀ t : Fin grid1.N, cond1_0 (grid1.coords t) ↔ t.val % 4 = 0)

/-- The two scratch operands: whole scoped buffers of the kernel's own. -/
abbrev scM0 : Memref sig .tc .vmem S2048x1024 .bf16 := Memref.whole cc1_scratch0
abbrev scM1 : Memref sig .tc .vmem S2048x1024 .bf16 := Memref.whole cc1_scratch1

/-! ## The body's triples, one per branch -/

set_option maxHeartbeats 2000000 in
/-- At a batch's first point: the key and value blocks are read, the two scratch buffers are filled from them,
    and the output is the tile's attention from the query block and the two fills. -/
theorem sound_kernel1_first (c : Dev nD) (E : Set ℕ) (i : grid1.Coords) (hc : cond1_0 i)
    (arg2 : Memref sig .tc .vmem S1x512x1024 .f32) (harg2 : arg2.IsWhole) (arg3 : Memref sig .tc .vmem S1x2048x1024 .f32) (harg3 : arg3.IsWhole)
    (arg4 : Memref sig .tc .vmem S1x2048x1024 .f32) (harg4 : arg4.IsWhole) (arg5 : Memref sig .tc .vmem S1x512x1024 .f32) (harg5 : arg5.IsWhole)
    (arg6 : Memref sig .tc .vmem S2048x1024 .bf16) (harg6 : arg6.IsWhole) (arg7 : Memref sig .tc .vmem S2048x1024 .bf16) (harg7 : arg7.IsWhole)
    (xq : Vec F S1x512x1024 .f32) (xk xv : Vec F S1x2048x1024 .f32) (K : PUnit → sProp 𝕄) :
    iprop(owns (c : Thread nD τ) arg2 fullShare xq ∗ owns (c : Thread nD τ) arg3 fullShare xk ∗ owns (c : Thread nD τ) arg4 fullShare xv
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare xq ∗ owns (c : Thread nD τ) arg3 fullShare xk ∗ owns (c : Thread nD τ) arg4 fullShare xv
            ∗ owns (c : Thread nD τ) arg5 fullShare (out1_3 xq (scrK xk) (scrV xv))
            ∗ owns (c : Thread nD τ) arg6 fullShare (scrK xk) ∗ owns (c : Thread nD τ) arg7 fullShare (scrV xv)) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    refine (View.read_writes_eq_canon _ _ _ (cover1_q _)).trans ?_
    unfold out1_3 scrK scrV
    rw [View.readCov_eq_canon', View.readCov_eq_canon']
    rfl
  isplitl [H4]
  · iexists _; isplitr
    swap; · iexact H4
    ipureintro
    sl_unfold_run_names
    exact View.read_writes_eq_canon _ _ _ (cover1_s _)
  iexists _; isplitr
  swap; · iexact H5
  ipureintro
  sl_unfold_run_names
  exact View.read_writes_eq_canon _ _ _ (cover1_s _)

set_option maxHeartbeats 2000000 in
/-- At a batch's later points: the scratch buffers are read as found and left as found; the key and value windows'
    buffers are not touched at all. -/
theorem sound_kernel1_later (c : Dev nD) (E : Set ℕ) (i : grid1.Coords) (hc : ¬cond1_0 i)
    (arg2 : Memref sig .tc .vmem S1x512x1024 .f32) (harg2 : arg2.IsWhole) (arg3 : Memref sig .tc .vmem S1x2048x1024 .f32) (harg3 : arg3.IsWhole)
    (arg4 : Memref sig .tc .vmem S1x2048x1024 .f32) (harg4 : arg4.IsWhole) (arg5 : Memref sig .tc .vmem S1x512x1024 .f32) (harg5 : arg5.IsWhole)
    (arg6 : Memref sig .tc .vmem S2048x1024 .bf16) (harg6 : arg6.IsWhole) (arg7 : Memref sig .tc .vmem S2048x1024 .bf16) (harg7 : arg7.IsWhole)
    (xq : Vec F S1x512x1024 .f32) (s0 s1 : Vec F S2048x1024 .bf16) (K : PUnit → sProp 𝕄) :
    iprop(owns (c : Thread nD τ) arg2 fullShare xq
        ∗ (∃ d, owns (c : Thread nD τ) arg5 fullShare d) ∗ owns (c : Thread nD τ) arg6 fullShare s0 ∗ owns (c : Thread nD τ) arg7 fullShare s1
        ∗ (iprop(owns (c : Thread nD τ) arg2 fullShare xq
            ∗ owns (c : Thread nD τ) arg5 fullShare (out1_3 xq s0 s1)
            ∗ owns (c : Thread nD τ) arg6 fullShare s0 ∗ owns (c : Thread nD τ) arg7 fullShare s1) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f0, %hf0, H0⟩, ⟨%d3, %f3, -, H3⟩, ⟨%f4, %hf4, H4⟩, ⟨%f5, %hf5, H5⟩, Hk⟩
  subst hf0; subst hf4; subst hf5
  sl_exec (disch := first | exact hc)
  sl_step
  iapply Hk
  isplitl [H0]
  · iexists f0; isplitr; · ipureintro; rfl
    iexact H0
  isplitl [H3]
  · iexists _; isplitr
    swap; · iexact H3
    ipureintro
    exact View.read_writes_eq_canon _ _ _ (cover1_q _)
  isplitl [H4]
  · iexists f4; isplitr; · ipureintro; rfl
    iexact H4
  iexists f5; isplitr; · ipureintro; rfl
  iexact H5

/-! ## What the scratch buffers hold between points -/

/-- The first point of the batch that point `n` belongs to: 4·(n / 4). -/
def tb (n : ℕ) : Fin cfg1.N := ⟨(4 * (n / 4)) % 16, lt_of_lt_of_eq (Nat.mod_lt _ (by decide)) N_1.symm⟩

theorem tb_of_first (t : Fin cfg1.N) (h : t.val % 4 = 0) : tb t.val = t := by
  have h16 : t.val < 16 := lt_of_lt_of_eq t.isLt N_1
  apply Fin.ext; show (4 * (t.val / 4)) % 16 = t.val; omega

theorem tb_pred (n : ℕ) (h : n % 4 ≠ 0) : tb (n - 1) = tb n := by
  apply Fin.ext; show (4 * ((n - 1) / 4)) % 16 = (4 * (n / 4)) % 16
  have e : (n - 1) / 4 = n / 4 := by omega
  rw [e]

/-- The fills made from the key and the value block at point `t`. -/
def fillK (c : Dev nD) (t : Fin cfg1.N) : Vec F S2048x1024 .bf16 := scrK (iblk1 V c 1 t)
def fillV (c : Dev nD) (t : Fin cfg1.N) : Vec F S2048x1024 .bf16 := scrV (iblk1 V c 2 t)

/-- The two scratch buffers before point `j` (after point j − 1): anything before the first point, afterwards the
    fills from the first point of the batch of point j − 1. -/
def scr (c : Dev nD) (j : ℕ) : sProp 𝕄 :=
  if j = 0 then iprop((∃ d, owns (c : Thread nD τ) scM0 fullShare d) ∗ (∃ d, owns (c : Thread nD τ) scM1 fullShare d))
  else iprop(owns (c : Thread nD τ) scM0 fullShare (fillK V c (tb (j - 1))) ∗ owns (c : Thread nD τ) scM1 fullShare (fillV V c (tb (j - 1))))

theorem scr_succ (c : Dev nD) (j : ℕ) : scr V c (j + 1)
    = iprop(owns (c : Thread nD τ) scM0 fullShare (fillK V c (tb j)) ∗ owns (c : Thread nD τ) scM1 fullShare (fillV V c (tb j))) := by
  unfold scr; rw [if_neg (Nat.succ_ne_zero j), Nat.add_sub_cancel]

theorem scr_pos (c : Dev nD) (j : ℕ) (h : j ≠ 0) : scr V c j
    = iprop(owns (c : Thread nD τ) scM0 fullShare (fillK V c (tb (j - 1))) ∗ owns (c : Thread nD τ) scM1 fullShare (fillV V c (tb (j - 1)))) := by
  unfold scr; rw [if_neg h]

theorem scr_any (c : Dev nD) (j : ℕ) : scr V c j
    ⊢ iprop((∃ d, owns (c : Thread nD τ) scM0 fullShare d) ∗ (∃ d, owns (c : Thread nD τ) scM1 fullShare d)) := by
  by_cases h : j = 0
  · unfold scr; rw [if_pos h]
  · rw [scr_pos V c j h]
    iintro ⟨H0, H1⟩
    isplitl [H0]; · iexists _; iexact H0
    iexists _; iexact H1

/-- The other region's staging buffers, each whole at some contents: scoped buffers this region never touches. -/
def othersHeld (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The invariant before point `j`: the other region's staging buffers, the two scratch buffers, the generator register. -/
def Phi1 (c : Dev nD) (j : ℕ) : sProp 𝕄 := iprop(othersHeld (F := F) c ∗ scr V c j ∗ ∃ r, prngReg c r)

/-! ## The region's proof data -/

/-- The arrays as the region finds them; after the body at point `t` each input's buffer at its block, the output's
    at the tile's attention from the query block at `t` and the fills of the batch's first point; between points
    the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (fillK V c (tb t.val)) (fillV V c (tb t.val))
  Φ j := Phi1 V c j.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (fillK V c (tb t.val)) (fillV V c (tb t.val)) := by dsimp only [dat1]

theorem Phi_castSucc (c : Dev nD) (t : Fin cfg1.N) : (dat1 V c).Φ t.castSucc = Phi1 V c t.val := by
  dsimp only [dat1]; rw [Fin.coe_castSucc]
theorem Phi_succ (c : Dev nD) (t : Fin cfg1.N) : (dat1 V c).Φ t.succ = Phi1 V c (t.val + 1) := by
  dsimp only [dat1]; rw [Fin.val_succ]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point. At a batch's first point the scratch buffers are taken at whatever they hold and left at
    the fills from this point's key and value blocks (this point IS the batch's first); at a later point they are
    taken at the fills of the previous point's batch, which is this point's batch, and left as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    after1_0, after1_1, after1_2, after1_3, Phi_castSucc, Phi_succ]
  unfold Phi1
  rw [scr_succ]
  by_cases hc : cond1_0 (grid1.coords t)
  · have h4 : t.val % 4 = 0 := (hcond1_0 t).mp hc
    rw [tb_of_first t h4]
    unfold fillK fillV
    iintro ⟨⟨Hoth, Hs, Hp⟩, Ho, ⟨%d0, H0⟩, ⟨%d1, H1⟩, ⟨%d2, H2⟩, ⟨%d3, H3⟩⟩
    ihave Hs' := (scr_any V c t.val) $$ Hs
    icases Hs' with ⟨HS0, HS1⟩
    iapply (sound_kernel1_first c Set.univ _ hc _ _ _ _ _ _ _ _ _ _ _ _ (iblk1 V c 0 t) (iblk1 V c 1 t) (iblk1 V c 2 t) _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [Hoth HS0 HS1 Hp]
    · isplitl [Hoth]; · iexact Hoth
      isplitl [HS0 HS1]
      · isplitl [HS0]; · iexact HS0
        iexact HS1
      iexact Hp
    isplitl [Ho]; · iexact Ho
    isplitl [H0]; · iexact H0
    isplitl [H1]; · iexact H1
    isplitl [H2]; · iexact H2
    iexact H3
  · have h4 : t.val % 4 ≠ 0 := fun h => hc ((hcond1_0 t).mpr h)
    have h0 : t.val ≠ 0 := fun h => h4 (by rw [h])
    rw [scr_pos V c t.val h0, tb_pred t.val h4]
    iintro ⟨⟨Hoth, ⟨HS0, HS1⟩, Hp⟩, Ho, ⟨%d0, H0⟩, ⟨%d1, H1⟩, ⟨%d2, H2⟩, ⟨%d3, H3⟩⟩
    iapply (sound_kernel1_later c Set.univ _ hc _ _ _ _ _ _ _ _ _ _ _ _ (iblk1 V c 0 t) (fillK V c (tb t.val)) (fillV V c (tb t.val)) _)
    isplitl [H0]; · iexact H0
    isplitl [H3]; · iexists _; iexact H3
    isplitl [HS0]; · iexact HS0
    isplitl [HS1]; · iexact HS1
    iintro ⟨H0, H3, HS0, HS1⟩
    isplitl [Hoth HS0 HS1 Hp]
    · isplitl [Hoth]; · iexact Hoth
      isplitl [HS0 HS1]
      · isplitl [HS0]; · iexact HS0
        iexact HS1
      iexact Hp
    isplitl [Ho]; · iexact Ho
    isplitl [H0]; · iexact H0
    isplitl [H1]; · iexact H1
    isplitl [H2]; · iexact H2
    iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameIRun.lean ====
/-
  The whole run of the program: its five host operations, the projection region, three reshapes,
  the attention region — as four segments between five boundaries, with the contents of every
  unscoped buffer named at each boundary.

  Boundary 0 is the launch memory. Boundary 1 is that after the first stretch of host operations
  (the two concatenations, the change of format, the two reshapes). Boundary 2 differs from 1 only
  in the projection region's three result arrays, which hold what the region's write-backs leave.
  Boundary 3 is 2 after the three reshapes. Boundary 4 differs from 3 only in the attention
  region's result array. No host operation and no region writes an argument array, so each
  argument reads back through the four steps to its launch contents; and the program's result is
  the attention region's result array at boundary 4.
-/
import proofs.«149817_j75685913690753_2_alg».proof.Proof.FrameI0
import proofs.«149817_j75685913690753_2_alg».proof.Proof.FrameI1
import proofs.«149817_j75685913690753_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev bnd0 : Dev nD → Valuation τ sig (Elt F) := fun c b => (s₀ m ρ).mem ((c : Dev nD), b)
/-- After the first stretch of host operations (the projection region's entry). -/
abbrev bnd1 : Dev nD → Valuation τ sig (Elt F) := fun c => StableHlo.after hostOps0 (bnd0 m ρ c)
abbrev at1 : (c : Dev nD) → (b : Ref sig .tc) → Buf (Elt F) ((c : Thread nD τ).loc b) := fun c b => bnd1 m ρ c b
/-- At the projection region's exit: its arrays at what the pipeline leaves, every other buffer as entered. -/
def bnd2 (c : Dev nD) : Valuation τ sig (Elt F) :=
  Pipeline.withArrays spec0 c (bnd1 m ρ c) fun w => (dat0 (at1 m ρ) c).arrAt w cfg0.N
theorem bnd2_arr (c : Dev nD) (w : Fin cfg0.W) :
    bnd2 m ρ c (Proc.devRef .tc (Pipeline.arrRef spec0 w)) = (dat0 (at1 m ρ) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m ρ c (Proc.devRef .tc b) = bnd1 m ρ c (Proc.devRef .tc b) := by
  unfold bnd2; exact Pipeline.withArrays_of_ne spec0 c _ _ b hb
abbrev at2 : (c : Dev nD) → (b : Ref sig .tc) → Buf (Elt F) ((c : Thread nD τ).loc b) := fun c b => bnd2 m ρ c b
theorem hF0 (c : Dev nD) (w : Fin cfg0.W) : (dat0 (at1 m ρ) c).arrAt w cfg0.N = at2 m ρ c (Pipeline.arrRef spec0 w) :=
  (bnd2_arr m ρ c w).symm
theorem hrest0 (c : Dev nD) : ∀ b, b ∉ Finset.univ.image (Pipeline.arrRef spec0) → at2 m ρ c b = at1 m ρ c b :=
  fun b hb => bnd2_of_ne m ρ c b fun w e => hb (Finset.mem_image.mpr ⟨w, Finset.mem_univ _, e⟩)

/-- After the three reshapes (the attention region's entry). -/
abbrev bnd3 : Dev nD → Valuation τ sig (Elt F) := fun c => StableHlo.after hostOps1 (bnd2 m ρ c)
abbrev at3 : (c : Dev nD) → (b : Ref sig .tc) → Buf (Elt F) ((c : Thread nD τ).loc b) := fun c b => bnd3 m ρ c b
/-- At the attention region's exit. -/
def bnd4 (c : Dev nD) : Valuation τ sig (Elt F) :=
  Pipeline.withArrays spec1 c (bnd3 m ρ c) fun w => (dat1 (at3 m ρ) c).arrAt w cfg1.N
theorem bnd4_arr (c : Dev nD) (w : Fin cfg1.W) :
    bnd4 m ρ c (Proc.devRef .tc (Pipeline.arrRef spec1 w)) = (dat1 (at3 m ρ) c).arrAt w cfg1.N := by
  unfold bnd4; exact Pipeline.withArrays_arr spec1 launch1.win.arr_inj c _ _ w
theorem bnd4_of_ne (c : Dev nD) (b : Ref sig .tc) (hb : ∀ w, Pipeline.arrRef spec1 w ≠ b) :
    bnd4 m ρ c (Proc.devRef .tc b) = bnd3 m ρ c (Proc.devRef .tc b) := by
  unfold bnd4; exact Pipeline.withArrays_of_ne spec1 c _ _ b hb
abbrev at4 : (c : Dev nD) → (b : Ref sig .tc) → Buf (Elt F) ((c : Thread nD τ).loc b) := fun c b => bnd4 m ρ c b
theorem hF1 (c : Dev nD) (w : Fin cfg1.W) : (dat1 (at3 m ρ) c).arrAt w cfg1.N = at4 m ρ c (Pipeline.arrRef spec1 w) :=
  (bnd4_arr m ρ c w).symm
theorem hrest1 (c : Dev nD) : ∀ b, b ∉ Finset.univ.image (Pipeline.arrRef spec1) → at4 m ρ c b = at3 m ρ c b :=
  fun b hb => bnd4_of_ne m ρ c b fun w e => hb (Finset.mem_image.mpr ⟨w, Finset.mem_univ _, e⟩)

/-- A buffer that is no array of either region and that no host operation writes ends as launched. -/
theorem bnd4_kept (c : Dev nD) (r : Ref sig .tc) (h1 : ∀ w, Pipeline.arrRef spec1 w ≠ r) (h2 : r ∉ hostOps1_W)
    (h3 : ∀ w, Pipeline.arrRef spec0 w ≠ r) (h4 : r ∉ hostOps0_W) :
    bnd4 m ρ c (Proc.devRef .tc r) = m ((c : Thread nD τ).loc r) :=
  (bnd4_of_ne m ρ c r h1).trans <| (StableHlo.after_of_writes_sub hostOps1 _ hostOps1_writes h2).trans <|
    (bnd2_of_ne m ρ c r h3).trans <| (StableHlo.after_of_writes_sub hostOps0 _ hostOps0_writes h4).trans rfl

/-! ## The proof data family and the thread state -/

abbrev hadm : (p : Fin 2) → (pcfgs (F := F) p).Adm := fun p => (cfgs p).toPCfg_adm
/-- Each region's proof data at its entry contents. -/
def hpdats : (p : Fin 2) → (c : Dev nD) → Dat τ (Elt F) Unit ℕ (UR sig nD τ) ℕ (Pipeline.pin (pcfgs (F := F)) hadm p) c
  | ⟨0, _⟩ => fun c => dat0 (at1 m ρ) c
  | ⟨1, _⟩ => fun c => dat1 (at3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (bnd4 m ρ c) ∗ ∃ r, prngReg c r)

/-! ## The regions as segments -/

set_option backward.isDefEq.respectTransparency.types false in
/-- The projection region: entered from boundary 1, left at boundary 2. Its arrays are split out of the unscoped
    buffers and put back at their exit contents; the generator register goes into the invariant and comes out. -/
def hreg0 : Pipeline.RegionSeg (pcfgs (F := F)) hadm (hpdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (at1 m ρ) c).loose
  hwaits := Pipeline.hwaits_of_owed_zero _ _ _ _ L lv 0 fun _ _ => rfl
  pre c := iprop(StableHlo.held (c : Thread nD τ) (Pipeline.ucRefs τ sig) (bnd1 m ρ c) ∗ Rst c)
  post c := iprop(StableHlo.held (c : Thread nD τ) (Pipeline.ucRefs τ sig) (bnd2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (at1 m ρ c)
  hentry c := by
    rw [Pipeline.ownSems0_none]
    have hsplit := Pipeline.arrays_of_unscopedBufs (p := 0) (pcfgs (F := F)) hadm (hpdats m ρ) launch0.win launch0.arr_whole c
      ((hpdats m ρ 0 c).share_full fun _ => rfl) (at1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (hpdats m ρ) ((hpdats m ρ 0 c).share_full fun _ => rfl)
      (at1 m ρ c) (at2 m ρ c) ((hpdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from boundary 3, left at boundary 4. Besides the above, the region's invariant
    starts from the scoped buffers it does not stage — the other region's staging buffers and its own two scratch
    buffers, at whatever they hold — and gives them back at the end, the scratch buffers at whatever the last
    point left. -/
def hreg1 : Pipeline.RegionSeg (pcfgs (F := F)) hadm (hpdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (at3 m ρ) c).loose
  hwaits := Pipeline.hwaits_of_owed_zero _ _ _ _ L lv 1 fun _ _ => rfl
  pre c := iprop(StableHlo.held (c : Thread nD τ) (Pipeline.ucRefs τ sig) (bnd3 m ρ c) ∗ Rst c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (at3 m ρ c)
  hentry c := by
    rw [Pipeline.ownSems0_none]
    have hsplit := Pipeline.arrays_of_unscopedBufs (p := 1) (pcfgs (F := F)) hadm (hpdats m ρ) launch1.win launch1.arr_whole c
      ((hpdats m ρ 1 c).share_full fun _ => rfl) (at3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hsr : (Pipeline.scopedRest (Ix := Unit) (Name := ℕ) (U := UR sig nD τ) (Lvl := ℕ) (Val := Elt F) (Pipeline.pin (pcfgs (F := F)) hadm 1).spec c : sProp 𝕄)
        = Pipeline.scopedRest (Ix := Unit) (Name := ℕ) (U := UR sig nD τ) (Lvl := ℕ) (Val := Elt F) spec1 c := rfl
    rw [show (hpdats m ρ 1 c).Φ 0 = Phi1 (at3 m ρ) c 0 from rfl, hsr, scopedRest1_eq]
    unfold Phi1 othersHeld scr
    rw [if_pos rfl]
    simp only [owns_whole]
    iintro ⟨Hp, -, G0, G1, G2, G3, G4, G5, G6, G7, G8, G9, HS0, HS1⟩
    isplitl [G0 G1 G2 G3 G4 G5 G6 G7 G8 G9]
    · isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      iexact G9
    isplitl [HS0 HS1]
    · isplitl [HS0]; · iexact HS0
      iexact HS1
    iexact Hp
  hout c := by
    have hsr : (Pipeline.scopedRest (Ix := Unit) (Name := ℕ) (U := UR sig nD τ) (Lvl := ℕ) (Val := Elt F) (Pipeline.pin (pcfgs (F := F)) hadm 1).spec c : sProp 𝕄)
        = Pipeline.scopedRest (Ix := Unit) (Name := ℕ) (U := UR sig nD τ) (Lvl := ℕ) (Val := Elt F) spec1 c := rfl
    rw [Pipeline.ownSems0_none, show (hpdats m ρ 1 c).Φ (Fin.last _) = Phi1 (at3 m ρ) c (Fin.last (Pipeline.pin (pcfgs (F := F)) hadm 1).N).val from rfl, hsr, scopedRest1_eq]
    unfold Phi1 othersHeld
    iintro ⟨⟨G0, G1, G2, G3, G4, G5, G6, G7, G8, G9⟩, Hs, Hp⟩
    ihave Hs' := (scr_any (at3 m ρ) c _) $$ Hs
    simp only [owns_whole]
    icases Hs' with ⟨HS0, HS1⟩
    isplitl [Hp]; · iexact Hp
    isplitr; · iempintro
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [HS0]; · iexact HS0
    iexact HS1
  hexit c := by
    have hjoin := Pipeline.unscopedBufs_of_arrays (p := 1) (pcfgs (F := F)) hadm (Ix := Unit) (Name := ℕ) (U := UR sig nD τ) (Lvl := ℕ)
      launch1.win launch1.arr_whole c (hpdats m ρ) ((hpdats m ρ 1 c).share_full fun _ => rfl)
      (at3 m ρ c) (at4 m ρ c) ((hpdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev hsegs : List (Pipeline.Seg (pcfgs (F := F)) hadm (hpdats m ρ) () defs₀ 𝒱₀ L lv) :=
  [ .host (hseg hostOps0 hostOps0_sub hostOps0_fresh (bnd0 m ρ)),
    .region (hreg0 m ρ),
    .host (hseg hostOps1 hostOps1_sub hostOps1_fresh (bnd2 m ρ)),
    .region (hreg1 m ρ) ]
theorem hmain_run (c : Dev nD) : main (F := F) c = Pipeline.Seg.run (hsegs m ρ) := (main_chain c).trans (by chain_rfl)

set_option backward.isDefEq.respectTransparency.types false in
/-- Every weakly fair execution of the program from memory `m` with zero counters terminates, nothing faulting, and
    in the final state every unscoped buffer holds its contents at boundary 4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bnd4 m ρ c b) :=
  Pipeline.θ_run_regions_kit (pcfgs (F := F)) hadm (hpdats m ρ) () cellOf_inj emb₁ defs₀ 𝒱₀ L lv m ρ main (hsegs m ρ)
    (fun c Q => by rw [hmain_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m ρ c) ∗ Rst c)) (Tₙ := Tlast m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (bnd0 m ρ c)
        from Pipeline.unscopedBufs_held c (bnd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd4 m ρ c b)
    (hfin := fun c s' => by
      iintro ⟨⟨Hh, -⟩, HSI⟩
      unfold StableHlo.held
      imodintro
      iapply (pointsTo_read_all (Pipeline.ucRefs τ sig) (fun b => (((c : Thread nD τ)).1, b)) (bnd4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (bnd4_kept m ρ c main_arg0 (by decide) (by decide) (by decide) (by decide)),
    (h c _ (mem_uc main_arg1 (by decide))).trans (bnd4_kept m ρ c main_arg1 (by decide) (by decide) (by decide) (by decide)),
    (h c _ (mem_uc main_arg2 (by decide))).trans (bnd4_kept m ρ c main_arg2 (by decide) (by decide) (by decide) (by decide)),
    (h c _ (mem_uc main_arg3 (by decide))).trans (bnd4_kept m ρ c main_arg3 (by decide) (by decide) (by decide) (by decide)),
    (h c _ (mem_uc main_arg4 (by decide))).trans (bnd4_kept m ρ c main_arg4 (by decide) (by decide) (by decide) (by decide)),
    (h c _ (mem_uc main_arg5 (by decide))).trans (bnd4_kept m ρ c main_arg5 (by decide) (by decide) (by decide) (by decide)),
    (h c _ (mem_uc main_arg6 (by decide))).trans (bnd4_kept m ρ c main_arg6 (by decide) (by decide) (by decide) (by decide))⟩) (run_all m ρ)

/-- The run with the result named: the program's result array ends at what the attention region's write-backs
    leave, and every argument array as launched. -/
theorem run_result : θ_run defs (onTc (τ := τ) (main (F := F))) ⟨m, fun _ => 0, ρ⟩ (fun r => ∀ c : Dev nD,
      r.2.mem ((c.tc : Thread nD τ).loc main_v9) = (dat1 (at3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v9 (by decide))).trans (bnd4_arr m ρ c 3),
    (h c _ (mem_uc main_arg0 (by decide))).trans (bnd4_kept m ρ c main_arg0 (by decide) (by decide) (by decide) (by decide)),
    (h c _ (mem_uc main_arg1 (by decide))).trans (bnd4_kept m ρ c main_arg1 (by decide) (by decide) (by decide) (by decide)),
    (h c _ (mem_uc main_arg2 (by decide))).trans (bnd4_kept m ρ c main_arg2 (by decide) (by decide) (by decide) (by decide)),
    (h c _ (mem_uc main_arg3 (by decide))).trans (bnd4_kept m ρ c main_arg3 (by decide) (by decide) (by decide) (by decide)),
    (h c _ (mem_uc main_arg4 (by decide))).trans (bnd4_kept m ρ c main_arg4 (by decide) (by decide) (by decide) (by decide)),
    (h c _ (mem_uc main_arg5 (by decide))).trans (bnd4_kept m ρ c main_arg5 (by decide) (by decide) (by decide) (by decide)),
    (h c _ (mem_uc main_arg6 (by decide))).trans (bnd4_kept m ρ c main_arg6 (by decide) (by decide) (by decide) (by decide))⟩) (run_all m ρ)

end Cert.KernelIdeal.Hand

end
-- ==== Proof.Spec.lean ====
/-
  Self-attention over x : [4, 2048, 1024] with three linear projections, as ONE function of the
  argument arrays on the extended reals.

  For a batch b and a sequence position s, the query row is q(b,s,e) = (Σ_d x(b,s,d)·Wq(d,e)) + bq(e),
  and likewise the key and value rows from Wk, bk and Wv, bv. The score of position s against
  position j is the inner product of the query row of s with the key row of j, times the scale
  1/32 = 1/√1024 (the word 0x3D000000 is exactly 2⁻⁵). Each row of scores is shifted by its maximum
  (a fold of `max` from −∞ over the 2048 keys), exponentiated, divided by the sum of the
  exponentials, and the output entry (b,s,e) is the sum over the keys j of that weight times the
  value row's entry v(b,j,e).
-/
import Idealize.ShloMosaic.PureOps.Ideal
import Idealize.ShloMosaic.Lib.ValueIdx

noncomputable section

namespace Cert.Attn

open Idealize.ShloMosaic Idealize.ShloMosaic.ValueIdx

/-- The scale 1/32, as the f32 word both programs' texts lead to. -/
abbrev scaleW : EReal := Ideal.ofBits .f32 0x3D000000#32

/-- −∞, the value a row maximum is folded from. -/
abbrev negInf : EReal := Ideal.ofBits .f32 0xFF800000#32

/-- One entry of a linear layer: a row of 1024 inputs against a column of 1024 weights, plus the bias entry. -/
def lin (x w : Fin 1024 → EReal) (b : EReal) : EReal := (∑ d : Fin 1024, x d * w d) + b

/-- The scaled score of a query row against a key row. -/
def score (q k : Fin 1024 → EReal) : EReal := (∑ e : Fin 1024, q e * k e) * scaleW

/-- A row's maximum score over the 2048 keys, folded from −∞. -/
def rowMax (q : Fin 1024 → EReal) (K : Fin 2048 → Fin 1024 → EReal) : EReal :=
  (Finset.univ : Finset (Fin 2048)).fold max negInf fun j => score q (K j)

/-- The exponential of a score shifted by its row's maximum. -/
def expShift (q : Fin 1024 → EReal) (K : Fin 2048 → Fin 1024 → EReal) (j : Fin 2048) : EReal :=
  Ideal.exp (score q (K j) - rowMax q K)

/-- The softmax weight of key `j` for the query row `q`. -/
def weight (q : Fin 1024 → EReal) (K : Fin 2048 → Fin 1024 → EReal) (j : Fin 2048) : EReal :=
  Ideal.div (expShift q K j) (∑ j' : Fin 2048, expShift q K j')

/-- One output entry of attention: the softmax-weighted sum of the value rows' entry `e`. -/
def attnRow (q : Fin 1024 → EReal) (K V : Fin 2048 → Fin 1024 → EReal) (e : Fin 1024) : EReal :=
  ∑ j : Fin 2048, weight q K j * V j e

/-- A projected row: entry `e` of position `(b, s)` of `x · W + bias`. -/
def projRow (x : (⟨3, ![4, 2048, 1024]⟩ : Shape).Idx → EReal) (W : (⟨2, ![1024, 1024]⟩ : Shape).Idx → EReal)
    (bias : (⟨1, ![1024]⟩ : Shape).Idx → EReal) (b : Fin 4) (s : Fin 2048) (e : Fin 1024) : EReal :=
  lin (fun d => x (ix3 b s d)) (fun d => W (ix2 d e)) (bias (ix1 e))

/-- The whole result array as a function of the seven argument arrays. -/
def G (x : (⟨3, ![4, 2048, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal) :
    (⟨3, ![4, 2048, 1024]⟩ : Shape).Idx → EReal := fun i =>
  attnRow (projRow x Wq bq (i 0) (i 1)) (fun j => projRow x Wk bk (i 0) j) (fun j => projRow x Wv bv (i 0) j) (i 2)

end Cert.Attn

end
-- ==== Proof.RefValue.lean ====
/-
  The reference program's result, read at every index, is the attention function `Cert.Attn.G` of its seven
  arguments on the extended reals.

  The generated module reads each operation of the reference at an index. What is owed beyond index bookkeeping:
  the reference divides the inner products by √1024 where `G` multiplies by the word of 1/32 (1024 = 32², and a
  division by a nonzero real is the product with its reciprocal, at the infinities too); the row maximum is a
  one-axis reduction, a fold of `max` from −∞ over the keys, and the `max` against −∞ taken after it is the
  identity on such a fold; the row sum starts from the word of +0.0, which denotes 0.
-/
import proofs.«149817_j75685913690753_2_alg».proof.Proof.Gen.ReferenceIdeal.Read
import proofs.«149817_j75685913690753_2_alg».proof.Proof.Spec

noncomputable section

namespace Cert.RefValue

open Cert.ReferenceIdeal Cert.ReferenceIdeal.Gen Cert.ReferenceIdeal.Read Idealize.ShloMosaic Idealize.ShloMosaic.ValueIdx Idealize.SL.Sem Idealize.ShloMosaic.TcCoe

/-! ## The constants -/

/-- The word 0x44800000 denotes the real 1024. -/
theorem ofBits_1024 : Ideal.ofBits .f32 0x44800000#32 = ((1024 : ℝ) : EReal) := by
  simp [Ideal.ofBits, Ideal.ieee, -EReal.coe_mul]; norm_num

/-- The word 0x3D000000 denotes the real 1/32. -/
theorem ofBits_inv32 : Ideal.ofBits .f32 0x3D000000#32 = ((1 / 32 : ℝ) : EReal) := by
  simp [Ideal.ofBits, Ideal.ieee, -EReal.coe_mul]; norm_num

/-- The square root of 1024 is 32, since 1024 = 32². -/
theorem sqrt_1024 : Ideal.sqrt ((1024 : ℝ) : EReal) = ((32 : ℝ) : EReal) := by
  show (if (1024 : ℝ) < 0 then (⊥ : EReal) else ((Real.sqrt 1024 : ℝ) : EReal)) = _
  rw [if_neg (by norm_num)]
  have h : Real.sqrt 1024 = 32 := by
    rw [show (1024 : ℝ) = 32 ^ 2 by norm_num]; exact Real.sqrt_sq (by norm_num)
  rw [h]

/-- Dividing by the square root of 1024 is multiplying by the scale 1/32, at the infinities too. -/
theorem div_sqrt_1024 (x : EReal) :
    Ideal.div x (Ideal.sqrt (Ideal.ofBits .f32 0x44800000#32)) = x * Cert.Attn.scaleW := by
  rw [ofBits_1024, sqrt_1024, Ideal.div_coe (by norm_num : (32 : ℝ) ≠ 0)]
  show _ = x * Ideal.ofBits .f32 0x3D000000#32
  rw [ofBits_inv32]

/-! ## The three projections -/

/-- The query projection at an index: the linear layer's entry. -/
theorem v3_at (x0 : (⟨S4x2048x1024, .f32⟩ : BufTy).Contents (Elt Ideal)) (w : (⟨S1024x1024, .f32⟩ : BufTy).Contents (Elt Ideal))
    (c : (⟨S1024, .f32⟩ : BufTy).Contents (Elt Ideal)) (b : Fin 4) (s : Fin 2048) (e : Fin 1024) :
    val_main_v3 (F := Ideal) x0 w c (ix3 b s e) = Cert.Attn.projRow x0 w c b s e := by
  rw [val_main_v3_apply, val_main_v0_apply, val_main_v2_apply, val_main_v1_apply]
  show (∑ k : Fin 1024, x0 (lidx_main_v0 (ix3 b s e) k) * w (ridx_main_v0 (ix3 b s e) k)) + c (idx_main_v1 (idx_main_v2 (ix3 b s e)))
      = (∑ d : Fin 1024, x0 (ix3 b s d) * w (ix2 d e)) + c (ix1 e)
  have e1 : ∀ k : Fin 1024, lidx_main_v0 (ix3 b s e) k = ix3 b s k := fun k =>
    funext fun a => by match a with | ⟨0, _⟩ => rfl | ⟨1, _⟩ => rfl | ⟨2, _⟩ => rfl
  have e2 : ∀ k : Fin 1024, ridx_main_v0 (ix3 b s e) k = ix2 k e := fun k =>
    funext fun a => by match a with | ⟨0, _⟩ => rfl | ⟨1, _⟩ => rfl
  have e3 : idx_main_v1 (idx_main_v2 (ix3 b s e)) = ix1 e :=
    funext fun a => by match a with | ⟨0, _⟩ => rfl
  rw [e3]
  refine congrArg (· + c (ix1 e)) (Finset.sum_congr rfl fun k _ => ?_)
  rw [e1, e2]

/-- The key projection at an index. -/
theorem v7_at (x0 : (⟨S4x2048x1024, .f32⟩ : BufTy).Contents (Elt Ideal)) (w : (⟨S1024x1024, .f32⟩ : BufTy).Contents (Elt Ideal))
    (c : (⟨S1024, .f32⟩ : BufTy).Contents (Elt Ideal)) (b : Fin 4) (s : Fin 2048) (e : Fin 1024) :
    val_main_v7 (F := Ideal) x0 w c (ix3 b s e) = Cert.Attn.projRow x0 w c b s e := by
  rw [val_main_v7_apply, val_main_v4_apply, val_main_v6_apply, val_main_v5_apply]
  show (∑ k : Fin 1024, x0 (lidx_main_v4 (ix3 b s e) k) * w (ridx_main_v4 (ix3 b s e) k)) + c (idx_main_v5 (idx_main_v6 (ix3 b s e)))
      = (∑ d : Fin 1024, x0 (ix3 b s d) * w (ix2 d e)) + c (ix1 e)
  have e1 : ∀ k : Fin 1024, lidx_main_v4 (ix3 b s e) k = ix3 b s k := fun k =>
    funext fun a => by match a with | ⟨0, _⟩ => rfl | ⟨1, _⟩ => rfl | ⟨2, _⟩ => rfl
  have e2 : ∀ k : Fin 1024, ridx_main_v4 (ix3 b s e) k = ix2 k e := fun k =>
    funext fun a => by match a with | ⟨0, _⟩ => rfl | ⟨1, _⟩ => rfl
  have e3 : idx_main_v5 (idx_main_v6 (ix3 b s e)) = ix1 e :=
    funext fun a => by match a with | ⟨0, _⟩ => rfl
  rw [e3]
  refine congrArg (· + c (ix1 e)) (Finset.sum_congr rfl fun k _ => ?_)
  rw [e1, e2]

/-- The value projection at an index. -/
theorem v11_at (x0 : (⟨S4x2048x1024, .f32⟩ : BufTy).Contents (Elt Ideal)) (w : (⟨S1024x1024, .f32⟩ : BufTy).Contents (Elt Ideal))
    (c : (⟨S1024, .f32⟩ : BufTy).Contents (Elt Ideal)) (b : Fin 4) (s : Fin 2048) (e : Fin 1024) :
    val_main_v11 (F := Ideal) x0 w c (ix3 b s e) = Cert.Attn.projRow x0 w c b s e := by
  rw [val_main_v11_apply, val_main_v8_apply, val_main_v10_apply, val_main_v9_apply]
  show (∑ k : Fin 1024, x0 (lidx_main_v8 (ix3 b s e) k) * w (ridx_main_v8 (ix3 b s e) k)) + c (idx_main_v9 (idx_main_v10 (ix3 b s e)))
      = (∑ d : Fin 1024, x0 (ix3 b s d) * w (ix2 d e)) + c (ix1 e)
  have e1 : ∀ k : Fin 1024, lidx_main_v8 (ix3 b s e) k = ix3 b s k := fun k =>
    funext fun a => by match a with | ⟨0, _⟩ => rfl | ⟨1, _⟩ => rfl | ⟨2, _⟩ => rfl
  have e2 : ∀ k : Fin 1024, ridx_main_v8 (ix3 b s e) k = ix2 k e := fun k =>
    funext fun a => by match a with | ⟨0, _⟩ => rfl | ⟨1, _⟩ => rfl
  have e3 : idx_main_v9 (idx_main_v10 (ix3 b s e)) = ix1 e :=
    funext fun a => by match a with | ⟨0, _⟩ => rfl
  rw [e3]
  refine congrArg (· + c (ix1 e)) (Finset.sum_congr rfl fun k _ => ?_)
  rw [e1, e2]

/-! ## Scores, the row maximum, the exponentials and their sum -/

/-- A fold of `max` started from `b` is at least `b`, so a further `max` against `b` changes nothing. -/
theorem max_fold_self {ι : Type} (S : Finset ι) (b : EReal) (f : ι → EReal) :
    max b (S.fold max b f) = S.fold max b f :=
  max_eq_right ((Finset.le_fold_max _).mpr (Or.inl le_rfl))

/-- A score entry: the inner product of the query row of `s` with the key row of `j`, divided by √1024. -/
theorem v15_at (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 4) (s j : Fin 2048) :
    val_main_v15 (F := Ideal) x0 x1 x2 x3 x4 (ix3 b s j)
      = Cert.Attn.score (Cert.Attn.projRow x0 x1 x2 b s) (Cert.Attn.projRow x0 x3 x4 b j) := by
  rw [val_main_v15_apply, val_main_v12_apply, val_main_v14_apply, val_main_v13_apply, val_main_cst_apply]
  show Ideal.div (∑ k : Fin 1024, val_main_v3 (F := Ideal) x0 x1 x2 (lidx_main_v12 (ix3 b s j) k) * val_main_v7 (F := Ideal) x0 x3 x4 (ridx_main_v12 (ix3 b s j) k))
      (Ideal.sqrt (Ideal.ofBits .f32 0x44800000#32)) = _
  rw [div_sqrt_1024]
  unfold Cert.Attn.score
  refine congrArg (· * Cert.Attn.scaleW) (Finset.sum_congr rfl fun k _ => ?_)
  have e1 : lidx_main_v12 (ix3 b s j) k = ix3 b s k :=
    funext fun a => by match a with | ⟨0, _⟩ => rfl | ⟨1, _⟩ => rfl | ⟨2, _⟩ => rfl
  have e2 : ridx_main_v12 (ix3 b s j) k = ix3 b j k :=
    funext fun a => by match a with | ⟨0, _⟩ => rfl | ⟨1, _⟩ => rfl | ⟨2, _⟩ => rfl
  rw [e1, e2, v3_at, v7_at]

/-- The reduction over the key axis, read at a row: the fold of `max` from −∞ over the 2048 keys. The outer
    `max` against −∞ changes nothing, the fold starting from −∞ already. -/
theorem v18_at (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 4) (s : Fin 2048) :
    val_main_v18 (F := Ideal) x0 x1 x2 x3 x4 (ix2 b s)
      = Cert.Attn.rowMax (Cert.Attn.projRow x0 x1 x2 b s) (fun j => Cert.Attn.projRow x0 x3 x4 b j) := by
  have hR : S4x2048x2048.Reduces [2] S4x2048 := by decide
  have hfold : val_main_v16 (F := Ideal) x0 x1 x2 x3 x4 (ix2 b s)
      = (Finset.univ : Finset (Fin 2048)).fold max (Ideal.ofBits .f32 0xFF800000#32)
          (fun k : Fin 2048 => val_main_v15 (F := Ideal) x0 x1 x2 x3 x4 (hR.lift (ix2 b s) k)) :=
    Host.reduce_eq_fold_single (FloatOps.maximumf (F := Ideal) (φ := .f32)) (val_main_v15 (F := Ideal) x0 x1 x2 x3 x4)
      (val_main_cst_0 (F := Ideal)) reducesTo_S4x2048x2048_S4x2048_d2 hR h_S_ (ix2 b s)
  have hv18 : val_main_v18 (F := Ideal) x0 x1 x2 x3 x4 (ix2 b s)
      = max (Ideal.ofBits .f32 0xFF800000#32) (val_main_v16 (F := Ideal) x0 x1 x2 x3 x4 (ix2 b s)) := by
    rw [val_main_v18_apply, val_main_v17_apply, val_main_cst_1_apply]; rfl
  refine hv18.trans ((congrArg (max (Ideal.ofBits .f32 0xFF800000#32)) hfold).trans ((max_fold_self _ _ _).trans ?_))
  unfold Cert.Attn.rowMax
  refine Finset.fold_congr fun (k : Fin 2048) _ => ?_
  have e1 : hR.lift (ix2 b s) k = ix3 b s k :=
    funext fun a => Fin.ext (by match a with | ⟨0, _⟩ => rfl | ⟨1, _⟩ => rfl | ⟨2, _⟩ => rfl)
  show val_main_v15 (F := Ideal) x0 x1 x2 x3 x4 (hR.lift (ix2 b s) k) = _
  rw [e1, v15_at]

/-- The row maximum broadcast back over the key axis. -/
theorem v20_at (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 4) (s j : Fin 2048) :
    val_main_v20 (F := Ideal) x0 x1 x2 x3 x4 (ix3 b s j)
      = Cert.Attn.rowMax (Cert.Attn.projRow x0 x1 x2 b s) (fun j => Cert.Attn.projRow x0 x3 x4 b j) := by
  rw [val_main_v20_apply, val_main_v19_apply]
  have e1 : idx_main_v19 (idx_main_v20 (ix3 b s j)) = ix2 b s :=
    funext fun a => by match a with | ⟨0, _⟩ => rfl | ⟨1, _⟩ => rfl
  rw [e1, v18_at]

/-- The exponential of the shifted score. -/
theorem v22_at (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 4) (s j : Fin 2048) :
    val_main_v22 (F := Ideal) x0 x1 x2 x3 x4 (ix3 b s j)
      = Cert.Attn.expShift (Cert.Attn.projRow x0 x1 x2 b s) (fun j => Cert.Attn.projRow x0 x3 x4 b j) j := by
  rw [val_main_v22_apply, val_main_v21_apply, v15_at, v20_at]
  rfl

/-- The row's sum of exponentials: the initial value is the word of +0.0, which denotes 0. -/
theorem v23_at (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 4) (s : Fin 2048) :
    val_main_v23 (F := Ideal) x0 x1 x2 x3 x4 (ix2 b s)
      = ∑ j' : Fin 2048, Cert.Attn.expShift (Cert.Attn.projRow x0 x1 x2 b s) (fun j => Cert.Attn.projRow x0 x3 x4 b j) j' := by
  rw [val_main_v23_apply, val_main_cst_2_apply]
  show Ideal.ofBits .f32 0x00000000#32 + _ = _
  rw [Ideal.ofBits_zero_f32, zero_add]
  refine Finset.sum_congr rfl fun k _ => ?_
  have e1 : idx_main_v23 (ix2 b s) k = ix3 b s k :=
    funext fun a => by match a with | ⟨0, _⟩ => rfl | ⟨1, _⟩ => rfl | ⟨2, _⟩ => rfl
  rw [e1, v22_at]

/-- The softmax weight: the exponential over the row's sum. -/
theorem v26_at (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 4) (s j : Fin 2048) :
    val_main_v26 (F := Ideal) x0 x1 x2 x3 x4 (ix3 b s j)
      = Cert.Attn.weight (Cert.Attn.projRow x0 x1 x2 b s) (fun j => Cert.Attn.projRow x0 x3 x4 b j) j := by
  rw [val_main_v26_apply, val_main_v25_apply, val_main_v24_apply]
  have e1 : idx_main_v24 (idx_main_v25 (ix3 b s j)) = ix2 b s :=
    funext fun a => by match a with | ⟨0, _⟩ => rfl | ⟨1, _⟩ => rfl
  rw [e1, v22_at, v23_at]
  rfl

/-! ## The whole result -/

/-- The reference's result, as a function of its seven arguments, is the attention function `G`. -/
theorem val_is_G (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal))
    (x5 : (⟨S1024x1024, .f32⟩ : BufTy).Contents (Elt Ideal)) (x6 : (⟨S1024, .f32⟩ : BufTy).Contents (Elt Ideal)) :
    val_main_v27 (F := Ideal) x0 x1 x2 x3 x4 x5 x6 = Cert.Attn.G x0 x1 x2 x3 x4 x5 x6 := by
  funext i
  obtain ⟨b, s, e, rfl⟩ : ∃ (b : Fin 4) (s : Fin 2048) (e : Fin 1024), i = ix3 b s e := ⟨i 0, i 1, i 2, eq_ix3 i⟩
  rw [val_main_v27_apply]
  show _ = Cert.Attn.attnRow (Cert.Attn.projRow x0 x1 x2 b s) (fun j => Cert.Attn.projRow x0 x3 x4 b j)
      (fun j => Cert.Attn.projRow x0 x5 x6 b j) e
  unfold Cert.Attn.attnRow
  refine Finset.sum_congr rfl fun k _ => ?_
  have e1 : lidx_main_v27 (ix3 b s e) k = ix3 b s k :=
    funext fun a => by match a with | ⟨0, _⟩ => rfl | ⟨1, _⟩ => rfl | ⟨2, _⟩ => rfl
  have e2 : ridx_main_v27 (ix3 b s e) k = ix3 b k e :=
    funext fun a => by match a with | ⟨0, _⟩ => rfl | ⟨1, _⟩ => rfl | ⟨2, _⟩ => rfl
  rw [e1, e2, v26_at, v11_at]

/-- The reference run's result buffer is `G` of the seven argument buffers' launch contents. -/
theorem ref_is_G (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v27 (F := Ideal) m c
      = Cert.Attn.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (val_main_v27_eq (F := Ideal) m c).trans (val_is_G _ _ _ _ _ _ _)

end Cert.RefValue

end
-- ==== Proof.Pay.lean ====
/-
  The kernel bodies' arithmetic read at one index, at the ideal values.

  The projection body computes one [512,1024] x [1024,3072] product into a zero accumulator, adds a
  [1,3072] bias row to every row, and cuts three [512,1024] column blocks at offsets 0, 1024, 2048:
  entry (p, e) of block m is the inner product of row p of the input with column e + 1024 m of the
  weight, plus the bias entry e + 1024 m.

  The attention body scales the product of a block of 512 query rows with the 2048 key rows, shifts
  each row of scores by its maximum, exponentiates, divides by the row's sum, and multiplies by the
  value rows: entry (p, e) is the softmax-weighted sum over the keys of the value rows' entry e.
-/
import proofs.«149817_j75685913690753_2_alg».proof.Proof.Gen.KernelIdeal.Skeleton
import proofs.«149817_j75685913690753_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! ## The key and value rows stored for the attention body: a leading unit axis dropped -/

/-- The stored key rows: entry (r, e) is the loaded block's entry (0, r, e); the narrowing of the
    format is the identity on the extended reals. -/
theorem k1_pay1_apply (v : Vec Ideal S1x2048x1024 .f32) (r : Fin 2048) (e : Fin 1024) :
    k1_pay1 (F := Ideal) v (ix2 r e) = v (ix3 0 r e) := by
  unfold k1_pay1
  rw [shapeCast_self]
  exact shapeCast_1ab_ab_apply v _ r e

/-- The stored value rows, likewise. -/
theorem k1_pay2_apply (v : Vec Ideal S1x2048x1024 .f32) (r : Fin 2048) (e : Fin 1024) :
    k1_pay2 (F := Ideal) v (ix2 r e) = v (ix3 0 r e) := by
  unfold k1_pay2
  rw [shapeCast_self]
  exact shapeCast_1ab_ab_apply v _ r e

/-! ## The three products read at an index

Each is a product into a zero accumulator with one contracting axis: at an output index it is the
sum, over that axis's coordinate, of the two operands' entries; the contraction index is carried to
its one coordinate. -/

theorem mmProj_lhs0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch from List.not_mem_nil),
    dif_pos (show (0 : Fin S512x1024.rank) ∈ dot_S512x1024_S1024x3072_S512x3072_1_0_0_1_n_n.lhsNonContracting from List.mem_singleton.mpr rfl)]
  rfl
theorem mmProj_rhs1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch from List.not_mem_nil),
    dif_pos (show (1 : Fin S1024x3072.rank) ∈ dot_S512x1024_S1024x3072_S512x3072_1_0_0_1_n_n.rhsNonContracting from List.mem_singleton.mpr rfl)]
  rfl

/-- The projection's product: rows of the input against columns of the weight. -/
theorem mmProj_apply (l : FVec Ideal S512x1024 .bf16) (r : FVec Ideal S1024x3072 .bf16) (p : Fin 512) (c : Fin 3072) :
    matmul dot_S512x1024_S1024x3072_S512x3072_1_0_0_1_n_n none l r (constant S512x3072 .f32 0x00000000#32) (ix2 p c)
      = ∑ k : Fin 1024, l (ix2 p k) * r (ix2 k c) := by
  simp only [matmul]
  rw [Ideal.matmul_constant_zero_apply, ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p c) ((contrEquiv1 dot_S512x1024_S1024x3072_S512x3072_1_0_0_1_n_n 1024 rfl rfl).symm k) = ix2 p k := funext fun a => Fin.ext (by
    match a with
    | ⟨0, _⟩ => exact mmProj_lhs0 _ _
    | ⟨1, _⟩ => exact (dot_S512x1024_S1024x3072_S512x3072_1_0_0_1_n_n.lhsIdx_val_of_single (cl := 1) rfl _ _).trans hk)
  have er : dot_S512x1024_S1024x3072_S512x3072_1_0_0_1_n_n.rhsIdx (ix2 p c) ((contrEquiv1 dot_S512x1024_S1024x3072_S512x3072_1_0_0_1_n_n 1024 rfl rfl).symm k) = ix2 k c := funext fun a => Fin.ext (by
    match a with
    | ⟨0, _⟩ => exact (dot_S512x1024_S1024x3072_S512x3072_1_0_0_1_n_n.rhsIdx_val_of_single (cr := 0) rfl _ _).trans hk
    | ⟨1, _⟩ => exact mmProj_rhs1 _ _)
  rw [el, er]

theorem mmScore_lhs0 (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch from List.not_mem_nil),
    dif_pos (show (0 : Fin S512x1024.rank) ∈ dot_S512x1024_S2048x1024_S512x2048_1_1_0_0_n_n.lhsNonContracting from List.mem_singleton.mpr rfl)]
  rfl
theorem mmScore_rhs0 (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch from List.not_mem_nil),
    dif_pos (show (0 : Fin S2048x1024.rank) ∈ dot_S512x1024_S2048x1024_S512x2048_1_1_0_0_n_n.rhsNonContracting from List.mem_singleton.mpr rfl)]
  rfl

/-- The scores' product: a query row against a key ROW (both operands contract their second axis). -/
theorem mmScore_apply (l : FVec Ideal S512x1024 .bf16) (r : FVec Ideal S2048x1024 .bf16) (p : Fin 512) (c : Fin 2048) :
    matmul dot_S512x1024_S2048x1024_S512x2048_1_1_0_0_n_n none l r (constant S512x2048 .f32 0x00000000#32) (ix2 p c)
      = ∑ k : Fin 1024, l (ix2 p k) * r (ix2 c k) := by
  simp only [matmul]
  rw [Ideal.matmul_constant_zero_apply, ← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 p c) ((contrEquiv1 dot_S512x1024_S2048x1024_S512x2048_1_1_0_0_n_n 1024 rfl rfl).symm k) = ix2 p k := funext fun a => Fin.ext (by
    match a with
    | ⟨0, _⟩ => exact mmScore_lhs0 _ _
    | ⟨1, _⟩ => exact (dot_S512x1024_S2048x1024_S512x2048_1_1_0_0_n_n.lhsIdx_val_of_single (cl := 1) rfl _ _).trans hk)
  have er : dot_S512x1024_S2048x1024_S512x2048_1_1_0_0_n_n.rhsIdx (ix2 p c) ((contrEquiv1 dot_S512x1024_S2048x1024_S512x2048_1_1_0_0_n_n 1024 rfl rfl).symm k) = ix2 c k := funext fun a => Fin.ext (by
    match a with
    | ⟨1, _⟩ => exact (dot_S512x1024_S2048x1024_S512x2048_1_1_0_0_n_n.rhsIdx_val_of_single (cr := 1) rfl _ _).trans hk
    | ⟨0, _⟩ => exact mmScore_rhs0 _ _)
  rw [el, er]

theorem mmOut_lhs0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch from List.not_mem_nil),
    dif_pos (show (0 : Fin S512x2048.rank) ∈ dot_S512x2048_S2048x1024_S512x1024_1_0_0_1_n_n.lhsNonContracting from List.mem_singleton.mpr rfl)]
  rfl
theorem mmOut_rhs1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch from List.not_mem_nil),
    dif_pos (show (1 : Fin S2048x1024.rank) ∈ dot_S512x2048_S2048x1024_S512x1024_1_0_0_1_n_n.rhsNonContracting from List.mem_singleton.mpr rfl)]
  rfl

/-- The output's product: a row of weights against a column of the value rows. -/
theorem mmOut_apply (l : FVec Ideal S512x2048 .bf16) (r : FVec Ideal S2048x1024 .bf16) (p : Fin 512) (c : Fin 1024) :
    matmul dot_S512x2048_S2048x1024_S512x1024_1_0_0_1_n_n none l r (constant S512x1024 .f32 0x00000000#32) (ix2 p c)
      = ∑ k : Fin 2048, l (ix2 p k) * r (ix2 k c) := by
  simp only [matmul]
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 p c) ((contrEquiv1 dot_S512x2048_S2048x1024_S512x1024_1_0_0_1_n_n 2048 rfl rfl).symm k) = ix2 p k := funext fun a => Fin.ext (by
    match a with
    | ⟨0, _⟩ => exact mmOut_lhs0 _ _
    | ⟨1, _⟩ => exact (dot_S512x2048_S2048x1024_S512x1024_1_0_0_1_n_n.lhsIdx_val_of_single (cl := 1) rfl _ _).trans hk)
  have er : dot_S512x2048_S2048x1024_S512x1024_1_0_0_1_n_n.rhsIdx (ix2 p c) ((contrEquiv1 dot_S512x2048_S2048x1024_S512x1024_1_0_0_1_n_n 2048 rfl rfl).symm k) = ix2 k c := funext fun a => Fin.ext (by
    match a with
    | ⟨0, _⟩ => exact (dot_S512x2048_S2048x1024_S512x1024_1_0_0_1_n_n.rhsIdx_val_of_single (cr := 0) rfl _ _).trans hk
    | ⟨1, _⟩ => exact mmOut_rhs1 _ _)
  rw [el, er]

/-! ## The projection body -/

/-- The projection before it is cut: entry (p, c) is row p of the input against column c of the
    weight, plus the bias row's entry c (the one bias row is added to every row). -/
theorem k0_pay1_apply (x : Vec Ideal S512x1024 .f32) (w : Vec Ideal S1024x3072 .bf16) (b : Vec Ideal S1x3072 .f32)
    (p : Fin 512) (c : Fin 3072) :
    k0_pay1 (F := Ideal) x w b (ix2 p c) = (∑ d : Fin 1024, x (ix2 p d) * w (ix2 d c)) + b (ix2 0 c) := by
  unfold k0_pay1
  rw [shapeCast_self, shapeCast_self, shapeCast_self]
  refine (addf_apply _ _ _).trans ?_
  refine congrArg₂ (· + ·) ?_ ?_
  · exact (mmProj_apply _ _ p c).trans (Finset.sum_congr rfl fun k _ => rfl)
  · exact broadcastTo_1b_ab_apply b _ p c

/-- The first block of columns (the query projection): entry (p, e) is the linear layer's entry at column e. -/
theorem k0_pay2_apply (x : Vec Ideal S512x1024 .f32) (w : Vec Ideal S1024x3072 .bf16) (b : Vec Ideal S1x3072 .f32)
    (p : Fin 512) (e : Fin 1024) :
    k0_pay2 (F := Ideal) x w b (ix2 p e)
      = Cert.Attn.lin (fun d => x (ix2 p d)) (fun d => w (ix2 d (⟨e.val, by omega⟩ : Fin 3072))) (b (ix2 0 (⟨e.val, by omega⟩ : Fin 3072))) := by
  unfold k0_pay2
  refine (slice2_axis1_apply 0 _ _ p e (⟨e.val, by omega⟩ : Fin 3072) (Nat.zero_add _).symm).trans ?_
  exact k0_pay1_apply x w b p _

/-- The second block of columns (the key projection): entry (p, e) is the linear layer's entry at column e + 1024. -/
theorem k0_pay3_apply (x : Vec Ideal S512x1024 .f32) (w : Vec Ideal S1024x3072 .bf16) (b : Vec Ideal S1x3072 .f32)
    (p : Fin 512) (e : Fin 1024) :
    k0_pay3 (F := Ideal) x w b (ix2 p e)
      = Cert.Attn.lin (fun d => x (ix2 p d)) (fun d => w (ix2 d (⟨e.val + 1024, by omega⟩ : Fin 3072))) (b (ix2 0 (⟨e.val + 1024, by omega⟩ : Fin 3072))) := by
  unfold k0_pay3
  refine (slice2_axis1_apply 1024 _ _ p e (⟨e.val + 1024, by omega⟩ : Fin 3072) (Nat.add_comm _ _)).trans ?_
  exact k0_pay1_apply x w b p _

/-- The third block of columns (the value projection): entry (p, e) is the linear layer's entry at column e + 2048. -/
theorem k0_pay4_apply (x : Vec Ideal S512x1024 .f32) (w : Vec Ideal S1024x3072 .bf16) (b : Vec Ideal S1x3072 .f32)
    (p : Fin 512) (e : Fin 1024) :
    k0_pay4 (F := Ideal) x w b (ix2 p e)
      = Cert.Attn.lin (fun d => x (ix2 p d)) (fun d => w (ix2 d (⟨e.val + 2048, by omega⟩ : Fin 3072))) (b (ix2 0 (⟨e.val + 2048, by omega⟩ : Fin 3072))) := by
  unfold k0_pay4
  refine (slice2_axis1_apply 2048 _ _ p e (⟨e.val + 2048, by omega⟩ : Fin 3072) (Nat.add_comm _ _)).trans ?_
  exact k0_pay1_apply x w b p _

/-! ## A row statistic kept as a column and spread back over the row -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row value read back at any entry of its row. -/
theorem keepdims_apply {α : Type} {a b : ℕ} (m : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ m h1) h2 (ix2 p c) = m (ix1 p) :=
  (broadcastTo_a1_ab_apply _ h2 p c).trans (shapeCast_a_a1_apply m h1 p 0)

/-! ## The reductions along a row -/

/-- The index of row `p` with the reduced coordinate `k` put back is `(p, k)`. -/
theorem lift_row (p : Fin 512) (k : Fin 2048) : reduces_S512x2048_S512.lift (ix1 p) k = ix2 p k :=
  funext fun a => Fin.ext (by
    match a with
    | ⟨0, _⟩ => rfl
    | ⟨1, _⟩ => rfl)

/-- A row's maximum: the fold of `max` from −∞ over the row's entries. -/
theorem rowMax_apply (S : FVec Ideal S512x2048 .f32) (p : Fin 512) :
    multiReduction .maximumf [1] S512 S 0xFF800000#32 reduces_S512x2048_S512 (.inl rfl) rfl (ix1 p)
      = (Finset.univ : Finset (Fin 2048)).fold max Cert.Attn.negInf (fun j => S (ix2 p j)) := by
  refine (Ideal.multiReduction_maximumf_single S _ reduces_S512x2048_S512 (.inl rfl) rfl (ix1 p)).trans ?_
  exact congrArg (fun f => (Finset.univ : Finset (Fin 2048)).fold max Cert.Attn.negInf f)
    (funext fun k => congrArg S (lift_row p k))

/-- A row's sum. -/
theorem rowSum_apply (E : FVec Ideal S512x2048 .f32) (p : Fin 512) :
    multiReduction .add [1] S512 E 0x00000000#32 reduces_S512x2048_S512 (.inl rfl) rfl (ix1 p)
      = ∑ j : Fin 2048, E (ix2 p j) :=
  (Ideal.multiReduction_add_single E _ reduces_S512x2048_S512 (.inl rfl) rfl (ix1 p)).trans
    (Finset.sum_congr rfl fun k _ => congrArg E (lift_row p k))

/-! ## The attention body

The body's arrays, named: the scaled scores, each row's maximum and sum spread back over the row, the
shifted exponentials, and the rows divided by their sums. The stored value is the product of the
last with the value rows, with a leading unit axis added. -/

/-- The scaled scores of the block's 512 query rows against the 2048 key rows. -/
def scores (q : Vec Ideal S1x512x1024 .f32) (s0 : Vec Ideal S2048x1024 .bf16) : FVec Ideal S512x2048 .f32 :=
  mulf (matmul (φ₂ := .bf16) dot_S512x1024_S2048x1024_S512x2048_1_1_0_0_n_n none
      (truncf .bf16 (shapeCast S512x1024 q shapeCasts_S1x512x1024_S512x1024) bitsLt_bf16_f32) s0
      (constant (F := Ideal) S512x2048 .f32 0x00000000#32))
    (broadcast S512x2048 (Scalar.ofBits (F := Ideal) .f32 0x3D000000#32))

/-- Every entry replaced by its row's maximum. -/
def rowMaxB (S : FVec Ideal S512x2048 .f32) : FVec Ideal S512x2048 .f32 :=
  broadcastTo S512x2048 (shapeCast S512x1
    (multiReduction .maximumf [1] S512 S 0xFF800000#32 reduces_S512x2048_S512 (.inl rfl) rfl)
    shapeCasts_S512_S512x1) broadcasts_S512x1_S512x2048

/-- Every entry replaced by its row's sum. -/
def rowSumB (E : FVec Ideal S512x2048 .f32) : FVec Ideal S512x2048 .f32 :=
  broadcastTo S512x2048 (shapeCast S512x1
    (multiReduction .add [1] S512 E 0x00000000#32 reduces_S512x2048_S512 (.inl rfl) rfl)
    shapeCasts_S512_S512x1) broadcasts_S512x1_S512x2048

/-- The exponentials of the entries shifted by their row's maximum. -/
def expRows (S : FVec Ideal S512x2048 .f32) : FVec Ideal S512x2048 .f32 := exp (subf S (rowMaxB S))

/-- Each row's shifted exponentials divided by their sum. -/
def softmaxRows (S : FVec Ideal S512x2048 .f32) : FVec Ideal S512x2048 .f32 :=
  divf (expRows S) (rowSumB (expRows S))

/-- The stored value in terms of those arrays. -/
theorem k1_pay3_eq (q : Vec Ideal S1x512x1024 .f32) (s0 s1 : Vec Ideal S2048x1024 .bf16) :
    k1_pay3 (F := Ideal) q s0 s1
      = shapeCast S1x512x1024 (matmul (φ₂ := .bf16) dot_S512x2048_S2048x1024_S512x1024_1_0_0_1_n_n none
          (truncf .bf16 (softmaxRows (scores q s0)) bitsLt_bf16_f32) s1
          (constant (F := Ideal) S512x1024 .f32 0x00000000#32)) shapeCasts_S512x1024_S1x512x1024 := rfl

/-- A score: the query row against the key row, times the scale. -/
theorem scores_apply (q : Vec Ideal S1x512x1024 .f32) (s0 : Vec Ideal S2048x1024 .bf16) (p : Fin 512) (j : Fin 2048) :
    scores q s0 (ix2 p j) = Cert.Attn.score (fun d => q (ix3 0 p d)) (fun d => s0 (ix2 j d)) := by
  unfold scores Cert.Attn.score
  refine (mulf_apply _ _ _).trans ?_
  refine congrArg₂ (· * ·) ?_ rfl
  refine (mmScore_apply _ _ p j).trans ?_
  exact Finset.sum_congr rfl fun k _ => congrArg₂ (· * ·) (shapeCast_1ab_ab_apply q _ p k) rfl

theorem rowMaxB_apply (S : FVec Ideal S512x2048 .f32) (p : Fin 512) (j : Fin 2048) :
    rowMaxB S (ix2 p j) = (Finset.univ : Finset (Fin 2048)).fold max Cert.Attn.negInf (fun j' => S (ix2 p j')) :=
  (keepdims_apply _ _ _ p j).trans (rowMax_apply S p)

theorem rowSumB_apply (E : FVec Ideal S512x2048 .f32) (p : Fin 512) (j : Fin 2048) :
    rowSumB E (ix2 p j) = ∑ j' : Fin 2048, E (ix2 p j') :=
  (keepdims_apply _ _ _ p j).trans (rowSum_apply E p)

/-- A shifted exponential, once row `p` of the array is known entry by entry. -/
theorem expRows_apply (S : FVec Ideal S512x2048 .f32) (p : Fin 512) (sc : Fin 2048 → EReal)
    (hS : ∀ j, S (ix2 p j) = sc j) (j : Fin 2048) :
    expRows S (ix2 p j) = Ideal.exp (sc j - (Finset.univ : Finset (Fin 2048)).fold max Cert.Attn.negInf sc) := by
  have hM : rowMaxB S (ix2 p j) = (Finset.univ : Finset (Fin 2048)).fold max Cert.Attn.negInf sc :=
    (rowMaxB_apply S p j).trans
      (congrArg (fun f => (Finset.univ : Finset (Fin 2048)).fold max Cert.Attn.negInf f) (funext hS))
  show Ideal.exp (S (ix2 p j) - rowMaxB S (ix2 p j)) = _
  rw [hS, hM]

/-- A row divided by its sum, likewise. -/
theorem softmaxRows_apply (S : FVec Ideal S512x2048 .f32) (p : Fin 512) (sc : Fin 2048 → EReal)
    (hS : ∀ j, S (ix2 p j) = sc j) (j : Fin 2048) :
    softmaxRows S (ix2 p j)
      = Ideal.div (Ideal.exp (sc j - (Finset.univ : Finset (Fin 2048)).fold max Cert.Attn.negInf sc))
          (∑ j' : Fin 2048, Ideal.exp (sc j' - (Finset.univ : Finset (Fin 2048)).fold max Cert.Attn.negInf sc)) := by
  unfold softmaxRows
  refine (divf_apply _ _ _).trans ?_
  refine congrArg₂ Ideal.div (expRows_apply S p sc hS j) ?_
  exact (rowSumB_apply _ p j).trans (Finset.sum_congr rfl fun j' _ => expRows_apply S p sc hS j')

/-- The attention body's stored value: entry (0, p, e) is the softmax-weighted sum, over the 2048
    keys, of the value rows' entry e, the weights those of query row p against the key rows. -/
theorem k1_pay3_apply (q : Vec Ideal S1x512x1024 .f32) (s0 s1 : Vec Ideal S2048x1024 .bf16) (p : Fin 512) (e : Fin 1024) :
    k1_pay3 (F := Ideal) q s0 s1 (ix3 0 p e)
      = Cert.Attn.attnRow (fun d => q (ix3 0 p d)) (fun j d => s0 (ix2 j d)) (fun j d => s1 (ix2 j d)) e := by
  rw [k1_pay3_eq]
  refine (shapeCast_ab_1ab_apply _ _ 0 p e).trans ?_
  refine (mmOut_apply _ _ p e).trans ?_
  unfold Cert.Attn.attnRow
  refine Finset.sum_congr rfl fun j _ => congrArg₂ (· * ·) ?_ rfl
  exact softmaxRows_apply (scores q s0) p _ (fun j' => scores_apply q s0 p j') j

end Cert.KernelIdeal.Pay

end
-- ==== Proof.ValueI0.lean ====
/-
  The projection region's three output arrays in closed form.

  The region's grid has 16 points; point t reads rows 512·t … 512·t+511 of the [8192,1024] input, the
  whole [1024,3072] weight and the whole [1,3072] bias row, and writes back one [512,1024] block of
  each of the three outputs at block index (t, 0). The 16 blocks tile each output, so each output
  array ends holding, at (r, e), the linear layer's entry: row r of the input against column
  e + off of the weight, plus the bias entry e + off, with off = 0, 1024, 2048 for the three outputs.
-/
import proofs.«149817_j75685913690753_2_alg».proof.Proof.FrameI0
import proofs.«149817_j75685913690753_2_alg».proof.Proof.Pay
import proofs.«149817_j75685913690753_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Ideal) ((c : Thread nD τ).loc b))

/-! ## The closed form -/

/-- The linear layer's array for the column block starting at `off`: entry (r, e) is row r of `x`
    against column e + off of `wt`, plus the bias entry e + off. -/
def projArr (x : S8192x1024.Idx → EReal) (wt : S1024x3072.Idx → EReal) (b : S1x3072.Idx → EReal)
    (off : Nat) (hoff : off + 1024 ≤ 3072) : S8192x1024.Idx → EReal := fun i =>
  Cert.Attn.lin (fun d => x (ix2 (i 0) d))
    (fun d => wt (ix2 d (⟨(i 1).val + off, by have := idx2_lt1 i; omega⟩ : Fin 3072)))
    (b (ix2 0 (⟨(i 1).val + off, by have := idx2_lt1 i; omega⟩ : Fin 3072)))

theorem hz0 : (![0, 0] : Fin 2 → Nat) = fun _ => 0 := funext fun a => by fin_cases a <;> rfl

/-- The grid has 16 points. -/
theorem lt16 (t : Fin cfg0.N) : t.val < 16 := lt_of_lt_of_eq t.isLt N_0

/-! ## The windows' block indices, decided over the grid

The input's and the three outputs' block index at point t is (t, 0); the weight's and the bias
row's is (0, 0) at every point. -/

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## Each window's block at a point, read where it lies in its array -/

/-- Row p of the input's block at point t is row 512·t + p of the input. -/
theorem iblk0_0_apply (c : Dev nD) (t : Fin cfg0.N) (p : Fin 512) (d : Fin 1024) :
    iblk0 V c 0 t (ix2 p d) = V c main_v4 (ix2 (⟨512 * t.val + p.val, by have := lt16 t; omega⟩ : Fin 8192) d) := by
  obtain ⟨e0, e1, -⟩ := idx_facts0 t
  show V c main_v4 (((cfg0.win 0).blk t).view.emb (ix2 p d)) = _
  refine congrArg (V c main_v4) (funext fun a => Fin.ext ?_)
  match a with
  | ⟨0, _⟩ => show win0_0.index t (0 : Fin 2) * 512 + 1 * p.val = 512 * t.val + p.val; omega
  | ⟨1, _⟩ => show win0_0.index t (1 : Fin 2) * 1024 + 1 * d.val = d.val; omega

/-- The weight's window is the whole array at every point. -/
theorem iblk0_1_apply (c : Dev nD) (t : Fin cfg0.N) (d : Fin 1024) (k : Fin 3072) :
    iblk0 V c 1 t (ix2 d k) = V c main_v1 (ix2 d k) := by
  obtain ⟨-, -, e2, e3, -⟩ := idx_facts0 t
  show V c main_v1 (((cfg0.win 1).blk t).view.emb (ix2 d k)) = _
  refine congrArg (V c main_v1) (funext fun a => Fin.ext ?_)
  match a with
  | ⟨0, _⟩ => show win0_1.index t (0 : Fin 2) * 1024 + 1 * d.val = d.val; omega
  | ⟨1, _⟩ => show win0_1.index t (1 : Fin 2) * 3072 + 1 * k.val = k.val; omega

/-- So is the bias row's. -/
theorem iblk0_2_apply (c : Dev nD) (t : Fin cfg0.N) (u : Fin 1) (k : Fin 3072) :
    iblk0 V c 2 t (ix2 u k) = V c main_v3 (ix2 u k) := by
  obtain ⟨-, -, -, -, e4, e5, -⟩ := idx_facts0 t
  show V c main_v3 (((cfg0.win 2).blk t).view.emb (ix2 u k)) = _
  refine congrArg (V c main_v3) (funext fun a => Fin.ext ?_)
  match a with
  | ⟨0, _⟩ => show win0_2.index t (0 : Fin 2) * 1 + 1 * u.val = u.val; omega
  | ⟨1, _⟩ => show win0_2.index t (1 : Fin 2) * 3072 + 1 * k.val = k.val; omega

/-! ## Output window 3 -/

/-- Entry (p, e) of the output's block at point t lies at (512·t + p, e) of the output. -/
theorem emb0_3 (t : Fin cfg0.N) (p : Fin 512) (e : Fin 1024) :
    ((cfg0.win 3).blk t).view.emb (ix2 p e) = ix2 (⟨512 * t.val + p.val, by have := lt16 t; omega⟩ : Fin 8192) e := by
  obtain ⟨-, -, -, -, -, -, e6, e7, e8, e9, e10, e11⟩ := idx_facts0 t
  refine funext fun a => Fin.ext ?_
  match a with
  | ⟨0, _⟩ => show win0_3.index t (0 : Fin 2) * 512 + 1 * p.val = 512 * t.val + p.val; omega
  | ⟨1, _⟩ => show win0_3.index t (1 : Fin 2) * 1024 + 1 * e.val = e.val; omega

/-- What point t writes back is block t of the closed form of the arrays as the region finds them. -/
theorem flushed0_3_eq (c : Dev nD) (t : Fin cfg0.N) :
    (dat0 V c).flushed 3 t
      = ((cfg0.win 3).blk t).view.read (Elt Ideal) (projArr (V c main_v4) (V c main_v1) (V c main_v3) 0 (by omega)) := by
  show (cfg0.win 3).cut (grid0.coords t) ((dat0 V c).after 3 t) = _
  rw [after0_3]
  unfold out0_3
  rw [View.canon_unit_zero hz0]
  simp only [View.ld_unit_zero (S := S512x1024) hz0, View.ld_unit_zero (S := S1024x3072) hz0, View.ld_unit_zero (S := S1x3072) hz0]
  funext y
  obtain ⟨p, e, rfl⟩ : ∃ (p : Fin 512) (e : Fin 1024), y = ix2 p e := ⟨y 0, y 1, eq_ix2 y⟩
  refine (Cert.KernelIdeal.Pay.k0_pay2_apply _ _ _ p e).trans ?_
  show _ = projArr (V c main_v4) (V c main_v1) (V c main_v3) 0 (by omega) (((cfg0.win 3).blk t).view.emb (ix2 p e))
  rw [emb0_3 t p e]
  unfold projArr
  simp only [iblk0_0_apply, iblk0_1_apply, iblk0_2_apply]
  rfl

/-- An index of the output is in point t's block iff each coordinate is in the block's range. -/
theorem mem_blk0_3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v5_0).slice (win0_3.rect t)).set ↔ _
  rw [View.set_slice_whole, Rect.mem_set_unit]
  exact Iff.rfl

/-- The 16 blocks tile the output: the index (r, e) is in the block of point r / 512. -/
theorem cover0_3 (i : S8192x1024.Idx) :
    ∃ t : Fin cfg0.N, (cfg0.win 3).flush t = true ∧ i ∈ ((cfg0.win 3).blk t).view.set := by
  have hi0 : (i 0).val < 8192 := idx2_lt0 i
  have hi1 : (i 1).val < 1024 := idx2_lt1 i
  have hN : (i 0).val / 512 < cfg0.N := lt_of_lt_of_eq (show (i 0).val / 512 < 16 by omega) N_0.symm
  refine ⟨⟨(i 0).val / 512, hN⟩, flush0_3 _, ?_⟩
  obtain ⟨-, -, -, -, -, -, e6, e7, e8, e9, e10, e11⟩ := idx_facts0 ⟨(i 0).val / 512, hN⟩
  rw [mem_blk0_3]
  intro a
  match a with
  | ⟨0, _⟩ =>
    show win0_3.index ⟨(i 0).val / 512, hN⟩ (0 : Fin 2) * 512 ≤ (i 0).val ∧ (i 0).val < win0_3.index ⟨(i 0).val / 512, hN⟩ (0 : Fin 2) * 512 + 512
    rw [e6]
    show (i 0).val / 512 * 512 ≤ (i 0).val ∧ (i 0).val < (i 0).val / 512 * 512 + 512
    omega
  | ⟨1, _⟩ =>
    show win0_3.index ⟨(i 0).val / 512, hN⟩ (1 : Fin 2) * 1024 ≤ (i 1).val ∧ (i 1).val < win0_3.index ⟨(i 0).val / 512, hN⟩ (1 : Fin 2) * 1024 + 1024
    rw [e7]
    omega

/-- THE OUTPUT ARRAY after the region: the closed form of the arrays as the region finds them. -/
theorem final0_3 (c : Dev nD) :
    (dat0 V c).arrAt 3 cfg0.N = projArr (V c main_v4) (V c main_v1) (V c main_v3) 0 (by omega) :=
  (dat0 V c).arrAt_eq_of_cover 3 (projArr (V c main_v4) (V c main_v1) (V c main_v3) 0 (by omega))
    (fun t _ => flushed0_3_eq V c t) cover0_3

/-! ## Output window 4 -/

/-- Entry (p, e) of the output's block at point t lies at (512·t + p, e) of the output. -/
theorem emb0_4 (t : Fin cfg0.N) (p : Fin 512) (e : Fin 1024) :
    ((cfg0.win 4).blk t).view.emb (ix2 p e) = ix2 (⟨512 * t.val + p.val, by have := lt16 t; omega⟩ : Fin 8192) e := by
  obtain ⟨-, -, -, -, -, -, e6, e7, e8, e9, e10, e11⟩ := idx_facts0 t
  refine funext fun a => Fin.ext ?_
  match a with
  | ⟨0, _⟩ => show win0_4.index t (0 : Fin 2) * 512 + 1 * p.val = 512 * t.val + p.val; omega
  | ⟨1, _⟩ => show win0_4.index t (1 : Fin 2) * 1024 + 1 * e.val = e.val; omega

/-- What point t writes back is block t of the closed form of the arrays as the region finds them. -/
theorem flushed0_4_eq (c : Dev nD) (t : Fin cfg0.N) :
    (dat0 V c).flushed 4 t
      = ((cfg0.win 4).blk t).view.read (Elt Ideal) (projArr (V c main_v4) (V c main_v1) (V c main_v3) 1024 (by omega)) := by
  show (cfg0.win 4).cut (grid0.coords t) ((dat0 V c).after 4 t) = _
  rw [after0_4]
  unfold out0_4
  rw [View.canon_unit_zero hz0]
  simp only [View.ld_unit_zero (S := S512x1024) hz0, View.ld_unit_zero (S := S1024x3072) hz0, View.ld_unit_zero (S := S1x3072) hz0]
  funext y
  obtain ⟨p, e, rfl⟩ : ∃ (p : Fin 512) (e : Fin 1024), y = ix2 p e := ⟨y 0, y 1, eq_ix2 y⟩
  refine (Cert.KernelIdeal.Pay.k0_pay3_apply _ _ _ p e).trans ?_
  show _ = projArr (V c main_v4) (V c main_v1) (V c main_v3) 1024 (by omega) (((cfg0.win 4).blk t).view.emb (ix2 p e))
  rw [emb0_4 t p e]
  unfold projArr
  simp only [iblk0_0_apply, iblk0_1_apply, iblk0_2_apply]

/-- An index of the output is in point t's block iff each coordinate is in the block's range. -/
theorem mem_blk0_4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v5_1).slice (win0_4.rect t)).set ↔ _
  rw [View.set_slice_whole, Rect.mem_set_unit]
  exact Iff.rfl

/-- The 16 blocks tile the output: the index (r, e) is in the block of point r / 512. -/
theorem cover0_4 (i : S8192x1024.Idx) :
    ∃ t : Fin cfg0.N, (cfg0.win 4).flush t = true ∧ i ∈ ((cfg0.win 4).blk t).view.set := by
  have hi0 : (i 0).val < 8192 := idx2_lt0 i
  have hi1 : (i 1).val < 1024 := idx2_lt1 i
  have hN : (i 0).val / 512 < cfg0.N := lt_of_lt_of_eq (show (i 0).val / 512 < 16 by omega) N_0.symm
  refine ⟨⟨(i 0).val / 512, hN⟩, flush0_4 _, ?_⟩
  obtain ⟨-, -, -, -, -, -, e6, e7, e8, e9, e10, e11⟩ := idx_facts0 ⟨(i 0).val / 512, hN⟩
  rw [mem_blk0_4]
  intro a
  match a with
  | ⟨0, _⟩ =>
    show win0_4.index ⟨(i 0).val / 512, hN⟩ (0 : Fin 2) * 512 ≤ (i 0).val ∧ (i 0).val < win0_4.index ⟨(i 0).val / 512, hN⟩ (0 : Fin 2) * 512 + 512
    rw [e8]
    show (i 0).val / 512 * 512 ≤ (i 0).val ∧ (i 0).val < (i 0).val / 512 * 512 + 512
    omega
  | ⟨1, _⟩ =>
    show win0_4.index ⟨(i 0).val / 512, hN⟩ (1 : Fin 2) * 1024 ≤ (i 1).val ∧ (i 1).val < win0_4.index ⟨(i 0).val / 512, hN⟩ (1 : Fin 2) * 1024 + 1024
    rw [e9]
    omega

/-- THE OUTPUT ARRAY after the region: the closed form of the arrays as the region finds them. -/
theorem final0_4 (c : Dev nD) :
    (dat0 V c).arrAt 4 cfg0.N = projArr (V c main_v4) (V c main_v1) (V c main_v3) 1024 (by omega) :=
  (dat0 V c).arrAt_eq_of_cover 4 (projArr (V c main_v4) (V c main_v1) (V c main_v3) 1024 (by omega))
    (fun t _ => flushed0_4_eq V c t) cover0_4

/-! ## Output window 5 -/

/-- Entry (p, e) of the output's block at point t lies at (512·t + p, e) of the output. -/
theorem emb0_5 (t : Fin cfg0.N) (p : Fin 512) (e : Fin 1024) :
    ((cfg0.win 5).blk t).view.emb (ix2 p e) = ix2 (⟨512 * t.val + p.val, by have := lt16 t; omega⟩ : Fin 8192) e := by
  obtain ⟨-, -, -, -, -, -, e6, e7, e8, e9, e10, e11⟩ := idx_facts0 t
  refine funext fun a => Fin.ext ?_
  match a with
  | ⟨0, _⟩ => show win0_5.index t (0 : Fin 2) * 512 + 1 * p.val = 512 * t.val + p.val; omega
  | ⟨1, _⟩ => show win0_5.index t (1 : Fin 2) * 1024 + 1 * e.val = e.val; omega

/-- What point t writes back is block t of the closed form of the arrays as the region finds them. -/
theorem flushed0_5_eq (c : Dev nD) (t : Fin cfg0.N) :
    (dat0 V c).flushed 5 t
      = ((cfg0.win 5).blk t).view.read (Elt Ideal) (projArr (V c main_v4) (V c main_v1) (V c main_v3) 2048 (by omega)) := by
  show (cfg0.win 5).cut (grid0.coords t) ((dat0 V c).after 5 t) = _
  rw [after0_5]
  unfold out0_5
  rw [View.canon_unit_zero hz0]
  simp only [View.ld_unit_zero (S := S512x1024) hz0, View.ld_unit_zero (S := S1024x3072) hz0, View.ld_unit_zero (S := S1x3072) hz0]
  funext y
  obtain ⟨p, e, rfl⟩ : ∃ (p : Fin 512) (e : Fin 1024), y = ix2 p e := ⟨y 0, y 1, eq_ix2 y⟩
  refine (Cert.KernelIdeal.Pay.k0_pay4_apply _ _ _ p e).trans ?_
  show _ = projArr (V c main_v4) (V c main_v1) (V c main_v3) 2048 (by omega) (((cfg0.win 5).blk t).view.emb (ix2 p e))
  rw [emb0_5 t p e]
  unfold projArr
  simp only [iblk0_0_apply, iblk0_1_apply, iblk0_2_apply]

/-- An index of the output is in point t's block iff each coordinate is in the block's range. -/
theorem mem_blk0_5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v5_2).slice (win0_5.rect t)).set ↔ _
  rw [View.set_slice_whole, Rect.mem_set_unit]
  exact Iff.rfl

/-- The 16 blocks tile the output: the index (r, e) is in the block of point r / 512. -/
theorem cover0_5 (i : S8192x1024.Idx) :
    ∃ t : Fin cfg0.N, (cfg0.win 5).flush t = true ∧ i ∈ ((cfg0.win 5).blk t).view.set := by
  have hi0 : (i 0).val < 8192 := idx2_lt0 i
  have hi1 : (i 1).val < 1024 := idx2_lt1 i
  have hN : (i 0).val / 512 < cfg0.N := lt_of_lt_of_eq (show (i 0).val / 512 < 16 by omega) N_0.symm
  refine ⟨⟨(i 0).val / 512, hN⟩, flush0_5 _, ?_⟩
  obtain ⟨-, -, -, -, -, -, e6, e7, e8, e9, e10, e11⟩ := idx_facts0 ⟨(i 0).val / 512, hN⟩
  rw [mem_blk0_5]
  intro a
  match a with
  | ⟨0, _⟩ =>
    show win0_5.index ⟨(i 0).val / 512, hN⟩ (0 : Fin 2) * 512 ≤ (i 0).val ∧ (i 0).val < win0_5.index ⟨(i 0).val / 512, hN⟩ (0 : Fin 2) * 512 + 512
    rw [e10]
    show (i 0).val / 512 * 512 ≤ (i 0).val ∧ (i 0).val < (i 0).val / 512 * 512 + 512
    omega
  | ⟨1, _⟩ =>
    show win0_5.index ⟨(i 0).val / 512, hN⟩ (1 : Fin 2) * 1024 ≤ (i 1).val ∧ (i 1).val < win0_5.index ⟨(i 0).val / 512, hN⟩ (1 : Fin 2) * 1024 + 1024
    rw [e11]
    omega

/-- THE OUTPUT ARRAY after the region: the closed form of the arrays as the region finds them. -/
theorem final0_5 (c : Dev nD) :
    (dat0 V c).arrAt 5 cfg0.N = projArr (V c main_v4) (V c main_v1) (V c main_v3) 2048 (by omega) :=
  (dat0 V c).arrAt_eq_of_cover 5 (projArr (V c main_v4) (V c main_v1) (V c main_v3) 2048 (by omega))
    (fun t _ => flushed0_5_eq V c t) cover0_5

end Cert.KernelIdeal.Hand

end
-- ==== Proof.ValueI1.lean ====
/-
  What the attention region leaves in its result array, as one function of the three arrays it
  reads (the projected queries, keys and values, each [4, 2048, 1024]), at the ideal values.

  Point t of the 4 × 4 grid is batch t / 4 and query tile t % 4. Its query block is rows
  512·(t % 4) … 512·(t % 4)+511 of batch t / 4; the key and value blocks are the whole of batch
  t / 4, and the scratch buffers hold their fill from the batch's first point 4·(t / 4), which is
  the same batch. So the block point t writes back is, entry by entry, the softmax-weighted sum
  of the batch's value rows for the query row — the block of ONE whole-array function. The 16
  output blocks tile the array (row r of batch b lies in the block of point 4·b + r / 512), so the
  array ends holding that function everywhere.
-/
import proofs.«149817_j75685913690753_2_alg».proof.Proof.FrameI1
import proofs.«149817_j75685913690753_2_alg».proof.Proof.Pay
import proofs.«149817_j75685913690753_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

theorem hz2' : (![0, 0] : Fin 2 → Nat) = fun _ => 0 := funext fun a => by fin_cases a <;> rfl
theorem hz3' : (![0, 0, 0] : Fin 3 → Nat) = fun _ => 0 := funext fun a => by fin_cases a <;> rfl

/-- Attention of three [4, 2048, 1024] arrays: entry (b, s, e) is the softmax-weighted sum, over the positions j of
    batch b, of the value rows' entry e, the weights from the query row (b, s) against the key rows (b, j). -/
def attnArr (q k v : S4x2048x1024.Idx → EReal) : S4x2048x1024.Idx → EReal := fun i =>
  Cert.Attn.attnRow (fun d => q (ix3 (i 0) (i 1) d)) (fun j d => k (ix3 (i 0) j d)) (fun j d => v (ix3 (i 0) j d)) (i 2)

/-- The windows' block indices at point t: batch t / 4 on the first axis; the query and output windows also
    tile t % 4 on the second. -/
theorem idx_facts1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

/-- The query block at point t: entry (0, p, d) is the array's entry (t / 4, 512·(t % 4) + p, d). -/
theorem qblk_apply (c : Dev nD) (t : Fin cfg1.N) (p : Fin 512) (d : Fin 1024) :
    (iblk1 V c 0 t : Vec Ideal S1x512x1024 .f32) (ix3 (0 : Fin 1) p d)
      = V c main_v6 (ix3 (⟨t.val / 4, by have := lt_of_lt_of_eq t.isLt N_1; omega⟩ : Fin 4)
          (⟨512 * (t.val % 4) + p.val, by have := p.isLt; omega⟩ : Fin 2048) d) := by
  obtain ⟨e0, e1, e2, -⟩ := idx_facts1 t
  show V c main_v6 (((cfg1.win 0).blk t).view.emb (ix3 (0 : Fin 1) p d)) = V c main_v6 _
  refine congrArg (V c main_v6) ?_
  funext a; apply Fin.ext
  match a with
  | ⟨0, _⟩ => show win1_0.index t (0 : Fin 3) * 1 + 1 * 0 = t.val / 4; omega
  | ⟨1, _⟩ => show win1_0.index t (1 : Fin 3) * 512 + 1 * p.val = 512 * (t.val % 4) + p.val; omega
  | ⟨2, _⟩ => show win1_0.index t (2 : Fin 3) * 1024 + 1 * d.val = d.val; omega

/-- The key block at the first point of point n's batch: entry (0, j, d) is the array's entry (n / 4, j, d). -/
theorem kblk_apply (c : Dev nD) (n : ℕ) (hn : n < 16) (j : Fin 2048) (d : Fin 1024) :
    (iblk1 V c 1 (tb n) : Vec Ideal S1x2048x1024 .f32) (ix3 (0 : Fin 1) j d)
      = V c main_v7 (ix3 (⟨n / 4, by omega⟩ : Fin 4) j d) := by
  obtain ⟨-, -, -, e0, e1, e2, -⟩ := idx_facts1 (tb n)
  have hv : (tb n).val = (4 * (n / 4)) % 16 := rfl
  show V c main_v7 (((cfg1.win 1).blk (tb n)).view.emb (ix3 (0 : Fin 1) j d)) = V c main_v7 _
  refine congrArg (V c main_v7) ?_
  funext a; apply Fin.ext
  match a with
  | ⟨0, _⟩ => show win1_1.index (tb n) (0 : Fin 3) * 1 + 1 * 0 = n / 4; omega
  | ⟨1, _⟩ => show win1_1.index (tb n) (1 : Fin 3) * 2048 + 1 * j.val = j.val; omega
  | ⟨2, _⟩ => show win1_1.index (tb n) (2 : Fin 3) * 1024 + 1 * d.val = d.val; omega

/-- The same for the value block. -/
theorem vblk_apply (c : Dev nD) (n : ℕ) (hn : n < 16) (j : Fin 2048) (d : Fin 1024) :
    (iblk1 V c 2 (tb n) : Vec Ideal S1x2048x1024 .f32) (ix3 (0 : Fin 1) j d)
      = V c main_v8 (ix3 (⟨n / 4, by omega⟩ : Fin 4) j d) := by
  obtain ⟨-, -, -, -, -, -, e0, e1, e2, -⟩ := idx_facts1 (tb n)
  have hv : (tb n).val = (4 * (n / 4)) % 16 := rfl
  show V c main_v8 (((cfg1.win 2).blk (tb n)).view.emb (ix3 (0 : Fin 1) j d)) = V c main_v8 _
  refine congrArg (V c main_v8) ?_
  funext a; apply Fin.ext
  match a with
  | ⟨0, _⟩ => show win1_2.index (tb n) (0 : Fin 3) * 1 + 1 * 0 = n / 4; omega
  | ⟨1, _⟩ => show win1_2.index (tb n) (1 : Fin 3) * 2048 + 1 * j.val = j.val; omega
  | ⟨2, _⟩ => show win1_2.index (tb n) (2 : Fin 3) * 1024 + 1 * d.val = d.val; omega

/-- The scratch fill from the keys is the batch's key rows, entry by entry (the change of format is the identity). -/
theorem fillK_apply (c : Dev nD) (n : ℕ) (hn : n < 16) (j : Fin 2048) (d : Fin 1024) :
    fillK V c (tb n) (ix2 j d) = V c main_v7 (ix3 (⟨n / 4, by omega⟩ : Fin 4) j d) := by
  unfold fillK scrK
  rw [View.canon_unit_zero hz2']
  simp only [View.ld_unit_zero (S := S1x2048x1024) hz3']
  exact (Cert.KernelIdeal.Pay.k1_pay1_apply _ j d).trans (kblk_apply V c n hn j d)

theorem fillV_apply (c : Dev nD) (n : ℕ) (hn : n < 16) (j : Fin 2048) (d : Fin 1024) :
    fillV V c (tb n) (ix2 j d) = V c main_v8 (ix3 (⟨n / 4, by omega⟩ : Fin 4) j d) := by
  unfold fillV scrV
  rw [View.canon_unit_zero hz2']
  simp only [View.ld_unit_zero (S := S1x2048x1024) hz3']
  exact (Cert.KernelIdeal.Pay.k1_pay2_apply _ j d).trans (vblk_apply V c n hn j d)

/-- What point t writes back is block t of the attention of the three arrays. -/
theorem flushed1_3_eq (c : Dev nD) (t : Fin cfg1.N) :
    (dat1 V c).flushed 3 t = ((cfg1.win 3).blk t).view.read (Elt Ideal) (attnArr (V c main_v6) (V c main_v7) (V c main_v8)) := by
  have h16 : t.val < 16 := lt_of_lt_of_eq t.isLt N_1
  show (cfg1.win 3).cut (grid1.coords t) ((dat1 V c).after 3 t) = _
  rw [after1_3]
  unfold out1_3
  rw [View.canon_unit_zero hz3']
  simp only [View.ld_unit_zero (S := S1x512x1024) hz3', View.ld_unit_zero (S := S2048x1024) hz2']
  funext y
  obtain ⟨p, e, rfl⟩ : ∃ (p : Fin 512) (e : Fin 1024), y = ix3 (0 : Fin 1) p e :=
    ⟨y 1, y 2, funext fun a => Fin.ext (by
      match a with
      | ⟨0, _⟩ => have h : (y 0).val < 1 := (y 0).isLt; show (y 0).val = 0; omega
      | ⟨1, _⟩ => rfl
      | ⟨2, _⟩ => rfl)⟩
  refine (Cert.KernelIdeal.Pay.k1_pay3_apply _ _ _ p e).trans ?_
  obtain ⟨-, -, -, -, -, -, -, -, -, e0, e1, e2⟩ := idx_facts1 t
  have hemb : ((cfg1.win 3).blk t).view.emb (ix3 (0 : Fin 1) p e)
      = ix3 (⟨t.val / 4, by omega⟩ : Fin 4) (⟨512 * (t.val % 4) + p.val, by have := p.isLt; omega⟩ : Fin 2048) e := by
    funext a; apply Fin.ext
    match a with
    | ⟨0, _⟩ => show win1_3.index t (0 : Fin 3) * 1 + 1 * 0 = t.val / 4; omega
    | ⟨1, _⟩ => show win1_3.index t (1 : Fin 3) * 512 + 1 * p.val = 512 * (t.val % 4) + p.val; omega
    | ⟨2, _⟩ => show win1_3.index t (2 : Fin 3) * 1024 + 1 * e.val = e.val; omega
  show _ = attnArr (V c main_v6) (V c main_v7) (V c main_v8) (((cfg1.win 3).blk t).view.emb (ix3 (0 : Fin 1) p e))
  rw [hemb]
  have hq : (fun d => (iblk1 V c 0 t : Vec Ideal S1x512x1024 .f32) (ix3 (0 : Fin 1) p d))
      = fun d => V c main_v6 (ix3 (⟨t.val / 4, by omega⟩ : Fin 4) (⟨512 * (t.val % 4) + p.val, by have := p.isLt; omega⟩ : Fin 2048) d) :=
    funext fun d => qblk_apply V c t p d
  have hk : (fun (j : Fin 2048) (d : Fin 1024) => fillK V c (tb t.val) (ix2 j d))
      = fun j d => V c main_v7 (ix3 (⟨t.val / 4, by omega⟩ : Fin 4) j d) :=
    funext fun j => funext fun d => fillK_apply V c t.val h16 j d
  have hv : (fun (j : Fin 2048) (d : Fin 1024) => fillV V c (tb t.val) (ix2 j d))
      = fun j d => V c main_v8 (ix3 (⟨t.val / 4, by omega⟩ : Fin 4) j d) :=
    funext fun j => funext fun d => fillV_apply V c t.val h16 j d
  exact (congrArg (fun q => Cert.Attn.attnRow q _ _ e) hq).trans
    ((congrArg (fun k => Cert.Attn.attnRow _ k _ e) hk).trans (congrArg (fun v => Cert.Attn.attnRow _ _ v e) hv))

/-- An index of the result array is in point t's block iff each coordinate is in the block's range on its axis. -/
theorem mem_blk1_3 (t : Fin cfg1.N) (i : S4x2048x1024.Idx) :
    i ∈ ((cfg1.win 3).blk t).view.set ↔ ∀ a : Fin 3, win1_3.index t a * S1x512x1024.size a ≤ (i a).val
      ∧ (i a).val < win1_3.index t a * S1x512x1024.size a + S1x512x1024.size a := by
  show i ∈ ((View.whole main_v9).slice (win1_3.rect t)).set ↔ _
  rw [View.set_slice_whole, Rect.mem_set_unit]
  exact Iff.rfl

/-- The 16 output blocks cover the array: entry (b, s, e) lies in the block of point 4·b + s / 512. -/
theorem cover1_3 (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, tv⟩ : ∃ t : Fin cfg1.N, t.val = 4 * (i 0).val + (i 1).val / 512 :=
    ⟨⟨4 * (i 0).val + (i 1).val / 512, lt_of_lt_of_eq (by omega) N_1.symm⟩, rfl⟩
  obtain ⟨-, -, -, -, -, -, -, -, -, e0, e1, e2⟩ := idx_facts1 t
  refine ⟨t, flush1_3 t, ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- The result array after the region: the attention of the three arrays the region reads. -/
theorem final1_3 (c : Dev nD) : (dat1 V c).arrAt 3 cfg1.N = attnArr (V c main_v6) (V c main_v7) (V c main_v8) :=
  (dat1 V c).arrAt_eq_of_cover 3 _ (fun t _ => flushed1_3_eq V c t) cover1_3

end Cert.KernelIdeal.Hand

end
-- ==== Proof.HostGlue.lean ====
/-
  The arrays the kernel program's two stretches of host operations write, read at an index, in terms of the contents
  the stretch starts from.

  The first stretch lays the three weight matrices side by side into one `[1024, 3072]` matrix (and narrows it, which
  is the identity on the extended reals), lays the three bias vectors end to end into one row `[1, 3072]`, and flattens
  the input `[4, 2048, 1024]` to `[8192, 1024]`. The second stretch unflattens three `[8192, 1024]` arrays back to
  `[4, 2048, 1024]`. A reshape keeps the row-major position, so row `r` of the flattened array is position
  `(r / 2048, r % 2048)`; a concatenation reads the piece whose span holds the coordinate on the joined axis, at that
  coordinate less the extents of the pieces before it. Every statement is over an arbitrary start valuation.
-/
import proofs.«149817_j75685913690753_2_alg».proof.Proof.Gen.KernelIdeal.Launch
import Idealize.ShloMosaic.Lib.StableHlo.Run
import Idealize.ShloMosaic.Lib.Pipeline.Value
import Idealize.ShloMosaic.Lib.ValueIdx

noncomputable section

namespace Cert.KernelIdeal.Glue

open Cert.KernelIdeal Cert.KernelIdeal.Gen Idealize.ShloMosaic Idealize.ShloMosaic.TcCoe Idealize.ShloMosaic.ValueIdx
open Idealize.ShloMosaic.StableHlo (after_cons after_nil)

/-! ## The layout operations read at an index, over arbitrary arrays -/

/-- A `[4, 2048, 1024]` array flattened to `[8192, 1024]`: row `r` is position `(r / 2048, r % 2048)`. -/
theorem flatten_apply {α : Type} (x : S4x2048x1024.Idx → α) (r : Fin 8192) (d : Fin 1024) :
    shapeCast S8192x1024 x shapeCasts_S4x2048x1024_S8192x1024 (ix2 r d)
      = x (ix3 (⟨r.val / 2048, by omega⟩ : Fin 4) (⟨r.val % 2048, by omega⟩ : Fin 2048) d) :=
  shapeCast_apply (s := S4x2048x1024) (t := S8192x1024) x _ _ _ (by
    rw [Shape.rowMajor_val_three, Shape.rowMajor_val_two]
    show (r.val / 2048 * 2048 + r.val % 2048) * 1024 + d.val = r.val * 1024 + d.val
    omega)

/-- An `[8192, 1024]` array unflattened to `[4, 2048, 1024]`: position `(b, s)` is row `2048 · b + s`. -/
theorem unflatten_apply {α : Type} (x : S8192x1024.Idx → α) (b : Fin 4) (s : Fin 2048) (e : Fin 1024) :
    shapeCast S4x2048x1024 x shapeCasts_S8192x1024_S4x2048x1024 (ix3 b s e)
      = x (ix2 (⟨2048 * b.val + s.val, by omega⟩ : Fin 8192) e) :=
  shapeCast_apply (s := S8192x1024) (t := S4x2048x1024) x _ _ _ (by
    rw [Shape.rowMajor_val_three, Shape.rowMajor_val_two]
    show (2048 * b.val + s.val) * 1024 + e.val = (b.val * 2048 + s.val) * 1024 + e.val
    omega)

/-- A `[3072]` array given a leading unit axis: `(0, c)` is position `c`. -/
theorem addUnit_apply {α : Type} (x : S3072.Idx → α) (u : Fin 1) (c : Fin 3072) :
    shapeCast S1x3072 x shapeCasts_S3072_S1x3072 (ix2 u c) = x (ix1 c) :=
  shapeCast_apply (s := S3072) (t := S1x3072) x _ _ _ (by
    have hu : u.val = 0 := by omega
    rw [Shape.rowMajor_val_two, Shape.rowMajor_val_one]
    show c.val = u.val * 3072 + c.val
    omega)

/-- Three `[1024, 1024]` matrices side by side: column `pre + e` of the `[1024, 3072]` array, `pre` the width of the
    pieces before piece `k`, is column `e` of piece `k`. -/
theorem cat3_cols_apply {α : Type} (y0 y1 y2 : S1024x1024.Idx → α) (d e : Fin 1024) :
    concatenate S1024x3072 1 [⟨S1024x1024, y0⟩, ⟨S1024x1024, y1⟩, ⟨S1024x1024, y2⟩]
        concatenates_S1024x1024_S1024x1024_S1024x1024_S1024x3072_d1 (ix2 d (⟨e.val, by omega⟩ : Fin 3072)) = y0 (ix2 d e)
    ∧ concatenate S1024x3072 1 [⟨S1024x1024, y0⟩, ⟨S1024x1024, y1⟩, ⟨S1024x1024, y2⟩]
        concatenates_S1024x1024_S1024x1024_S1024x1024_S1024x3072_d1 (ix2 d (⟨e.val + 1024, by omega⟩ : Fin 3072)) = y1 (ix2 d e)
    ∧ concatenate S1024x3072 1 [⟨S1024x1024, y0⟩, ⟨S1024x1024, y1⟩, ⟨S1024x1024, y2⟩]
        concatenates_S1024x1024_S1024x1024_S1024x1024_S1024x3072_d1 (ix2 d (⟨e.val + 2048, by omega⟩ : Fin 3072)) = y2 (ix2 d e) := by
  refine ⟨?_, ?_, ?_⟩
  · exact concatenate_apply_piece (t := S1024x3072) 1 _ _ _ 0 (by show (0 : Nat) < 3; omega) S1024x1024 y0 rfl rfl 0 rfl (ix2 d e)
      (fun b hb => match b with | ⟨0, _⟩ => rfl | ⟨1, _⟩ => absurd (Fin.ext rfl) hb)
      (by show 0 + e.val = e.val; omega)
  · exact concatenate_apply_piece (t := S1024x3072) 1 _ _ _ 1 (by show (1 : Nat) < 3; omega) S1024x1024 y1 rfl rfl 1024 rfl (ix2 d e)
      (fun b hb => match b with | ⟨0, _⟩ => rfl | ⟨1, _⟩ => absurd (Fin.ext rfl) hb)
      (by show 1024 + e.val = e.val + 1024; omega)
  · exact concatenate_apply_piece (t := S1024x3072) 1 _ _ _ 2 (by show (2 : Nat) < 3; omega) S1024x1024 y2 rfl rfl 2048 rfl (ix2 d e)
      (fun b hb => match b with | ⟨0, _⟩ => rfl | ⟨1, _⟩ => absurd (Fin.ext rfl) hb)
      (by show 2048 + e.val = e.val + 2048; omega)

/-- Three `[1024]` vectors end to end: position `pre + e` of the `[3072]` array is position `e` of piece `k`. -/
theorem cat3_vec_apply {α : Type} (y0 y1 y2 : S1024.Idx → α) (e : Fin 1024) :
    concatenate S3072 0 [⟨S1024, y0⟩, ⟨S1024, y1⟩, ⟨S1024, y2⟩]
        concatenates_S1024_S1024_S1024_S3072_d0 (ix1 (⟨e.val, by omega⟩ : Fin 3072)) = y0 (ix1 e)
    ∧ concatenate S3072 0 [⟨S1024, y0⟩, ⟨S1024, y1⟩, ⟨S1024, y2⟩]
        concatenates_S1024_S1024_S1024_S3072_d0 (ix1 (⟨e.val + 1024, by omega⟩ : Fin 3072)) = y1 (ix1 e)
    ∧ concatenate S3072 0 [⟨S1024, y0⟩, ⟨S1024, y1⟩, ⟨S1024, y2⟩]
        concatenates_S1024_S1024_S1024_S3072_d0 (ix1 (⟨e.val + 2048, by omega⟩ : Fin 3072)) = y2 (ix1 e) := by
  refine ⟨?_, ?_, ?_⟩
  · exact concatenate_apply_piece (t := S3072) 0 _ _ _ 0 (by show (0 : Nat) < 3; omega) S1024 y0 rfl rfl 0 rfl (ix1 e)
      (fun b hb => match b with | ⟨0, _⟩ => absurd (Fin.ext rfl) hb)
      (by show 0 + e.val = e.val; omega)
  · exact concatenate_apply_piece (t := S3072) 0 _ _ _ 1 (by show (1 : Nat) < 3; omega) S1024 y1 rfl rfl 1024 rfl (ix1 e)
      (fun b hb => match b with | ⟨0, _⟩ => absurd (Fin.ext rfl) hb)
      (by show 1024 + e.val = e.val + 1024; omega)
  · exact concatenate_apply_piece (t := S3072) 0 _ _ _ 2 (by show (2 : Nat) < 3; omega) S1024 y2 rfl rfl 2048 rfl (ix1 e)
      (fun b hb => match b with | ⟨0, _⟩ => absurd (Fin.ext rfl) hb)
      (by show 2048 + e.val = e.val + 2048; omega)

/-! ## The arrays the first host stretch writes -/

section Stretch0
variable (W : Valuation τ sig (Elt Ideal))

/-- The flattened input as the operations' term. -/
theorem v4_term : (StableHlo.after (hostOps0 (F := Ideal)) W (Proc.devRef .tc main_v4) : S8192x1024.Idx → EReal)
    = shapeCast S8192x1024 (W (Proc.devRef .tc main_arg0)) shapeCasts_S4x2048x1024_S8192x1024 := by
  dsimp only [hostOps0]; after_results; rfl

/-- The fused weight matrix as the operations' term: the three weight matrices side by side (the narrowing to the
    shorter format that follows is the identity on the extended reals). -/
theorem v1_term : (StableHlo.after (hostOps0 (F := Ideal)) W (Proc.devRef .tc main_v1) : S1024x3072.Idx → EReal)
    = concatenate S1024x3072 1 [⟨S1024x1024, W (Proc.devRef .tc main_arg1)⟩,
        ⟨S1024x1024, W (Proc.devRef .tc main_arg3)⟩, ⟨S1024x1024, W (Proc.devRef .tc main_arg5)⟩]
        concatenates_S1024x1024_S1024x1024_S1024x1024_S1024x3072_d1 := by
  dsimp only [hostOps0]; after_results; rfl

/-- The fused bias row as the operations' term: the three bias vectors end to end, given a leading unit axis. -/
theorem v3_term : (StableHlo.after (hostOps0 (F := Ideal)) W (Proc.devRef .tc main_v3) : S1x3072.Idx → EReal)
    = shapeCast S1x3072 (concatenate S3072 0 [⟨S1024, W (Proc.devRef .tc main_arg2)⟩,
        ⟨S1024, W (Proc.devRef .tc main_arg4)⟩, ⟨S1024, W (Proc.devRef .tc main_arg6)⟩]
        concatenates_S1024_S1024_S1024_S3072_d0) shapeCasts_S3072_S1x3072 := by
  dsimp only [hostOps0]; after_results; rfl

/-- Row `r` of the flattened input is position `(r / 2048, r % 2048)` of the input. -/
theorem g1 (r : Fin 8192) (d : Fin 1024) :
    StableHlo.after (hostOps0 (F := Ideal)) W (Proc.devRef .tc main_v4) (ix2 r d)
      = W (Proc.devRef .tc main_arg0) (ix3 (⟨r.val / 2048, by omega⟩ : Fin 4) (⟨r.val % 2048, by omega⟩ : Fin 2048) d) :=
  (congrFun (v4_term W) (ix2 r d)).trans (flatten_apply (W (Proc.devRef .tc main_arg0)) r d)

/-- Columns 0 … 1023 of the fused weight matrix are the query weights; narrowing is the identity on the extended reals. -/
theorem g2a (d e : Fin 1024) :
    StableHlo.after (hostOps0 (F := Ideal)) W (Proc.devRef .tc main_v1) (ix2 d (⟨e.val, by omega⟩ : Fin 3072))
      = W (Proc.devRef .tc main_arg1) (ix2 d e) :=
  (congrFun (v1_term W) (ix2 d (⟨e.val, by omega⟩ : Fin 3072))).trans (cat3_cols_apply (W (Proc.devRef .tc main_arg1)) (W (Proc.devRef .tc main_arg3)) (W (Proc.devRef .tc main_arg5)) d e).1
/-- Columns 1024 … 2047 are the key weights. -/
theorem g2b (d e : Fin 1024) :
    StableHlo.after (hostOps0 (F := Ideal)) W (Proc.devRef .tc main_v1) (ix2 d (⟨e.val + 1024, by omega⟩ : Fin 3072))
      = W (Proc.devRef .tc main_arg3) (ix2 d e) :=
  (congrFun (v1_term W) (ix2 d (⟨e.val + 1024, by omega⟩ : Fin 3072))).trans (cat3_cols_apply (W (Proc.devRef .tc main_arg1)) (W (Proc.devRef .tc main_arg3)) (W (Proc.devRef .tc main_arg5)) d e).2.1
/-- Columns 2048 … 3071 are the value weights. -/
theorem g2c (d e : Fin 1024) :
    StableHlo.after (hostOps0 (F := Ideal)) W (Proc.devRef .tc main_v1) (ix2 d (⟨e.val + 2048, by omega⟩ : Fin 3072))
      = W (Proc.devRef .tc main_arg5) (ix2 d e) :=
  (congrFun (v1_term W) (ix2 d (⟨e.val + 2048, by omega⟩ : Fin 3072))).trans (cat3_cols_apply (W (Proc.devRef .tc main_arg1)) (W (Proc.devRef .tc main_arg3)) (W (Proc.devRef .tc main_arg5)) d e).2.2

/-- Entries 0 … 1023 of the fused bias row are the query bias. -/
theorem g3a (e : Fin 1024) :
    StableHlo.after (hostOps0 (F := Ideal)) W (Proc.devRef .tc main_v3) (ix2 (0 : Fin 1) (⟨e.val, by omega⟩ : Fin 3072))
      = W (Proc.devRef .tc main_arg2) (ix1 e) :=
  (congrFun (v3_term W) (ix2 (0 : Fin 1) (⟨e.val, by omega⟩ : Fin 3072))).trans
    ((addUnit_apply (concatenate S3072 0 [⟨S1024, W (Proc.devRef .tc main_arg2)⟩, ⟨S1024, W (Proc.devRef .tc main_arg4)⟩, ⟨S1024, W (Proc.devRef .tc main_arg6)⟩] concatenates_S1024_S1024_S1024_S3072_d0) 0 ⟨e.val, by omega⟩).trans (cat3_vec_apply (W (Proc.devRef .tc main_arg2)) (W (Proc.devRef .tc main_arg4)) (W (Proc.devRef .tc main_arg6)) e).1)
/-- Entries 1024 … 2047 are the key bias. -/
theorem g3b (e : Fin 1024) :
    StableHlo.after (hostOps0 (F := Ideal)) W (Proc.devRef .tc main_v3) (ix2 (0 : Fin 1) (⟨e.val + 1024, by omega⟩ : Fin 3072))
      = W (Proc.devRef .tc main_arg4) (ix1 e) :=
  (congrFun (v3_term W) (ix2 (0 : Fin 1) (⟨e.val + 1024, by omega⟩ : Fin 3072))).trans
    ((addUnit_apply (concatenate S3072 0 [⟨S1024, W (Proc.devRef .tc main_arg2)⟩, ⟨S1024, W (Proc.devRef .tc main_arg4)⟩, ⟨S1024, W (Proc.devRef .tc main_arg6)⟩] concatenates_S1024_S1024_S1024_S3072_d0) 0 ⟨e.val + 1024, by omega⟩).trans (cat3_vec_apply (W (Proc.devRef .tc main_arg2)) (W (Proc.devRef .tc main_arg4)) (W (Proc.devRef .tc main_arg6)) e).2.1)
/-- Entries 2048 … 3071 are the value bias. -/
theorem g3c (e : Fin 1024) :
    StableHlo.after (hostOps0 (F := Ideal)) W (Proc.devRef .tc main_v3) (ix2 (0 : Fin 1) (⟨e.val + 2048, by omega⟩ : Fin 3072))
      = W (Proc.devRef .tc main_arg6) (ix1 e) :=
  (congrFun (v3_term W) (ix2 (0 : Fin 1) (⟨e.val + 2048, by omega⟩ : Fin 3072))).trans
    ((addUnit_apply (concatenate S3072 0 [⟨S1024, W (Proc.devRef .tc main_arg2)⟩, ⟨S1024, W (Proc.devRef .tc main_arg4)⟩, ⟨S1024, W (Proc.devRef .tc main_arg6)⟩] concatenates_S1024_S1024_S1024_S3072_d0) 0 ⟨e.val + 2048, by omega⟩).trans (cat3_vec_apply (W (Proc.devRef .tc main_arg2)) (W (Proc.devRef .tc main_arg4)) (W (Proc.devRef .tc main_arg6)) e).2.2)

end Stretch0

/-! ## The arrays the second host stretch writes -/

section Stretch1
variable (W : Valuation τ sig (Elt Ideal))

theorem v6_term : (StableHlo.after (hostOps1 (F := Ideal)) W (Proc.devRef .tc main_v6) : S4x2048x1024.Idx → EReal)
    = shapeCast S4x2048x1024 (W (Proc.devRef .tc main_v5_0)) shapeCasts_S8192x1024_S4x2048x1024 := by
  dsimp only [hostOps1]; after_results; rfl
theorem v7_term : (StableHlo.after (hostOps1 (F := Ideal)) W (Proc.devRef .tc main_v7) : S4x2048x1024.Idx → EReal)
    = shapeCast S4x2048x1024 (W (Proc.devRef .tc main_v5_1)) shapeCasts_S8192x1024_S4x2048x1024 := by
  dsimp only [hostOps1]; after_results; rfl
theorem v8_term : (StableHlo.after (hostOps1 (F := Ideal)) W (Proc.devRef .tc main_v8) : S4x2048x1024.Idx → EReal)
    = shapeCast S4x2048x1024 (W (Proc.devRef .tc main_v5_2)) shapeCasts_S8192x1024_S4x2048x1024 := by
  dsimp only [hostOps1]; after_results; rfl

/-- Position `(b, s)` of the unflattened query array is row `2048 · b + s` of the first region's first result. -/
theorem g4a (b : Fin 4) (s : Fin 2048) (e : Fin 1024) :
    StableHlo.after (hostOps1 (F := Ideal)) W (Proc.devRef .tc main_v6) (ix3 b s e)
      = W (Proc.devRef .tc main_v5_0) (ix2 (⟨2048 * b.val + s.val, by omega⟩ : Fin 8192) e) :=
  (congrFun (v6_term W) (ix3 b s e)).trans (unflatten_apply (W (Proc.devRef .tc main_v5_0)) b s e)
/-- Likewise the key array and the second result. -/
theorem g4b (b : Fin 4) (s : Fin 2048) (e : Fin 1024) :
    StableHlo.after (hostOps1 (F := Ideal)) W (Proc.devRef .tc main_v7) (ix3 b s e)
      = W (Proc.devRef .tc main_v5_1) (ix2 (⟨2048 * b.val + s.val, by omega⟩ : Fin 8192) e) :=
  (congrFun (v7_term W) (ix3 b s e)).trans (unflatten_apply (W (Proc.devRef .tc main_v5_1)) b s e)
/-- Likewise the value array and the third result. -/
theorem g4c (b : Fin 4) (s : Fin 2048) (e : Fin 1024) :
    StableHlo.after (hostOps1 (F := Ideal)) W (Proc.devRef .tc main_v8) (ix3 b s e)
      = W (Proc.devRef .tc main_v5_2) (ix2 (⟨2048 * b.val + s.val, by omega⟩ : Fin 8192) e) :=
  (congrFun (v8_term W) (ix3 b s e)).trans (unflatten_apply (W (Proc.devRef .tc main_v5_2)) b s e)

end Stretch1

end Cert.KernelIdeal.Glue

end
-- ==== Proof.Bridge.lean ====
/-
  The kernel program's result array, after the run, is the one function of the seven argument
  arrays that the reference computes.

  The attention region reads three [4, 2048, 1024] arrays. Each is a reshape of one of the
  projection region's [8192, 1024] results: position (b, s) is row 2048·b + s. Row r of such a
  result is the row r of the flattened input against a third of the fused weight columns plus the
  matching third of the fused bias row; the flattened input's row 2048·b + s is the input's
  position (b, s), and the thirds of the fused weights and bias are the three weight matrices and
  bias vectors themselves. So the three arrays are, entry by entry, the three linear projections
  of the input, and the attention of those is the specification.
-/
import proofs.«149817_j75685913690753_2_alg».proof.Proof.FrameIRun
import proofs.«149817_j75685913690753_2_alg».proof.Proof.ValueI0
import proofs.«149817_j75685913690753_2_alg».proof.Proof.ValueI1
import proofs.«149817_j75685913690753_2_alg».proof.Proof.HostGlue
import proofs.«149817_j75685913690753_2_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ) (ρ : Dev nD → PrngReg)

/-! ## The three arrays the attention region reads are the three projections -/

theorem read_q (c : Dev nD) (b : Fin 4) (s : Fin 2048) (e : Fin 1024) :
    at3 m ρ c main_v6 (ix3 b s e) = Cert.Attn.projRow (m ((c : Thread nD τ).loc main_arg0)) (m ((c : Thread nD τ).loc main_arg1)) (m ((c : Thread nD τ).loc main_arg2)) b s e := by
  have hr : (2048 * b.val + s.val) / 2048 = b.val := by have := s.isLt; omega
  have hs : (2048 * b.val + s.val) % 2048 = s.val := by have := s.isLt; omega
  refine (Cert.KernelIdeal.Glue.g4a (bnd2 m ρ c) b s e).trans ?_
  refine (congrFun (bnd2_arr m ρ c 3) _).trans ?_
  refine (congrFun (final0_3 (at1 m ρ) c) _).trans ?_
  unfold projArr Cert.Attn.projRow
  refine congr (congr (congrArg Cert.Attn.lin ?_) ?_) ?_
  · funext d
    refine (Cert.KernelIdeal.Glue.g1 (bnd0 m ρ c) _ d).trans ?_
    refine congrArg (m ((c : Thread nD τ).loc main_arg0)) ?_
    funext a; apply Fin.ext
    match a with
    | ⟨0, _⟩ => exact hr
    | ⟨1, _⟩ => exact hs
    | ⟨2, _⟩ => rfl
  · funext d
    exact Cert.KernelIdeal.Glue.g2a (bnd0 m ρ c) d e
  · exact Cert.KernelIdeal.Glue.g3a (bnd0 m ρ c) e

theorem read_k (c : Dev nD) (b : Fin 4) (s : Fin 2048) (e : Fin 1024) :
    at3 m ρ c main_v7 (ix3 b s e) = Cert.Attn.projRow (m ((c : Thread nD τ).loc main_arg0)) (m ((c : Thread nD τ).loc main_arg3)) (m ((c : Thread nD τ).loc main_arg4)) b s e := by
  have hr : (2048 * b.val + s.val) / 2048 = b.val := by have := s.isLt; omega
  have hs : (2048 * b.val + s.val) % 2048 = s.val := by have := s.isLt; omega
  refine (Cert.KernelIdeal.Glue.g4b (bnd2 m ρ c) b s e).trans ?_
  refine (congrFun (bnd2_arr m ρ c 4) _).trans ?_
  refine (congrFun (final0_4 (at1 m ρ) c) _).trans ?_
  unfold projArr Cert.Attn.projRow
  refine congr (congr (congrArg Cert.Attn.lin ?_) ?_) ?_
  · funext d
    refine (Cert.KernelIdeal.Glue.g1 (bnd0 m ρ c) _ d).trans ?_
    refine congrArg (m ((c : Thread nD τ).loc main_arg0)) ?_
    funext a; apply Fin.ext
    match a with
    | ⟨0, _⟩ => exact hr
    | ⟨1, _⟩ => exact hs
    | ⟨2, _⟩ => rfl
  · funext d
    exact Cert.KernelIdeal.Glue.g2b (bnd0 m ρ c) d e
  · exact Cert.KernelIdeal.Glue.g3b (bnd0 m ρ c) e

theorem read_v (c : Dev nD) (b : Fin 4) (s : Fin 2048) (e : Fin 1024) :
    at3 m ρ c main_v8 (ix3 b s e) = Cert.Attn.projRow (m ((c : Thread nD τ).loc main_arg0)) (m ((c : Thread nD τ).loc main_arg5)) (m ((c : Thread nD τ).loc main_arg6)) b s e := by
  have hr : (2048 * b.val + s.val) / 2048 = b.val := by have := s.isLt; omega
  have hs : (2048 * b.val + s.val) % 2048 = s.val := by have := s.isLt; omega
  refine (Cert.KernelIdeal.Glue.g4c (bnd2 m ρ c) b s e).trans ?_
  refine (congrFun (bnd2_arr m ρ c 5) _).trans ?_
  refine (congrFun (final0_5 (at1 m ρ) c) _).trans ?_
  unfold projArr Cert.Attn.projRow
  refine congr (congr (congrArg Cert.Attn.lin ?_) ?_) ?_
  · funext d
    refine (Cert.KernelIdeal.Glue.g1 (bnd0 m ρ c) _ d).trans ?_
    refine congrArg (m ((c : Thread nD τ).loc main_arg0)) ?_
    funext a; apply Fin.ext
    match a with
    | ⟨0, _⟩ => exact hr
    | ⟨1, _⟩ => exact hs
    | ⟨2, _⟩ => rfl
  · funext d
    exact Cert.KernelIdeal.Glue.g2c (bnd0 m ρ c) d e
  · exact Cert.KernelIdeal.Glue.g3c (bnd0 m ρ c) e

/-! ## The result -/

/-- What the attention region's write-backs leave in the result array is the specification of the arguments. -/
theorem kernel_value (c : Dev nD) :
    (dat1 (at3 m ρ) c).arrAt 3 cfg1.N
      = Cert.Attn.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [final1_3]
  funext i
  unfold attnArr Cert.Attn.G
  have hq : (fun d => at3 m ρ c main_v6 (ix3 (i 0) (i 1) d))
      = Cert.Attn.projRow (m ((c : Thread nD τ).loc main_arg0)) (m ((c : Thread nD τ).loc main_arg1)) (m ((c : Thread nD τ).loc main_arg2)) (i 0) (i 1) :=
    funext fun d => read_q m ρ c (i 0) (i 1) d
  have hk : (fun (j : Fin 2048) (d : Fin 1024) => at3 m ρ c main_v7 (ix3 (i 0) j d))
      = fun j => Cert.Attn.projRow (m ((c : Thread nD τ).loc main_arg0)) (m ((c : Thread nD τ).loc main_arg3)) (m ((c : Thread nD τ).loc main_arg4)) (i 0) j :=
    funext fun j => funext fun d => read_k m ρ c (i 0) j d
  have hv : (fun (j : Fin 2048) (d : Fin 1024) => at3 m ρ c main_v8 (ix3 (i 0) j d))
      = fun j => Cert.Attn.projRow (m ((c : Thread nD τ).loc main_arg0)) (m ((c : Thread nD τ).loc main_arg5)) (m ((c : Thread nD τ).loc main_arg6)) (i 0) j :=
    funext fun j => funext fun d => read_v m ρ c (i 0) j d
  exact (congrArg (fun q => Cert.Attn.attnRow q _ _ (i 2)) hq).trans
    ((congrArg (fun k => Cert.Attn.attnRow _ k _ (i 2)) hk).trans (congrArg (fun v => Cert.Attn.attnRow _ _ v (i 2)) hv))

end Cert.KernelIdeal.Hand

end
-- ==== Proof.lean ====
/-
  The certificate. The three frames: each kernel program runs to its end, faults nowhere and leaves
  its argument arrays as launched — read off the run of its two regions between their host
  operations; the reference's frame is its run with the result dropped. The idealized kernel is the
  kernel's own text read at the extended reals, so nothing was rewritten and there is nothing to
  preserve. The algebraic claim: at the extended reals both programs end with the result array at
  ONE function of the seven argument arrays — softmax attention over the three linear projections —
  the kernel's by reading its two regions' write-backs block by block, the reference's by reading
  its operations one at a time; the only law between the two texts is that dividing by √1024 is
  multiplying by 1/32, which holds on every extended real, so the precondition is not used.
-/
import proofs.«149817_j75685913690753_2_alg».proof.Defs
import proofs.«149817_j75685913690753_2_alg».proof.Proof.Gen.Kernel
import proofs.«149817_j75685913690753_2_alg».proof.Proof.Gen.KernelIdeal
import proofs.«149817_j75685913690753_2_alg».proof.Proof.Gen.ReferenceIdeal
import proofs.«149817_j75685913690753_2_alg».proof.Proof.Gen.Pre_finite_inputs
import proofs.«149817_j75685913690753_2_alg».proof.Proof.Gen.ReferenceIdeal.Run
import proofs.«149817_j75685913690753_2_alg».proof.Proof.FrameBRun
import proofs.«149817_j75685913690753_2_alg».proof.Proof.FrameIRun
import proofs.«149817_j75685913690753_2_alg».proof.Proof.RefValue
import proofs.«149817_j75685913690753_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the same function of the arguments, which agree. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Hand.kernel_value m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.RefValue.ref_is_G, h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
